-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S512x64 : Shape := ⟨2, ![512, 64]⟩
abbrev S1x512x64 : Shape := ⟨3, ![1, 512, 64]⟩
abbrev S64 : Shape := ⟨1, ![64]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S1x512x64 : S_.BroadcastsInDim S1x512x64 (![] : Fin 0 → Fin S1x512x64.rank)
  reducesTo_S1x512x64_S_d0_1_2 : S1x512x64.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_arg6 : FVec F S64 .f32) (main_v33 : IVec S_ 1) : IVec S_ 1 :=
  let main_cst_12 : FVec F S_ .f32 := constant S_ .f32 0x00000000#32
  let main_v34 : FVec F S64 .f32 := broadcastInDim S64 ![] bcast_S_S64 main_cst_12
  let main_v35 : IVec S64 1 := cmpf .oge main_arg6 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v33 main_v36
  main_v37

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg6 main_v33

def fn {F : FTy → Type} [FloatOps F] (main_arg0 : FVec F S32x4096x512 .f32) (main_arg1 : FVec F S512x64 .f32) (main_arg2 : FVec F S1x512x64 .f32) (main_arg3 : FVec F S64 .f32) (main_arg4 : FVec F S64 .f32) (main_arg5 : FVec F S64 .f32) (main_arg6 : FVec F S64 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S1x512x64 .f32 := Host.absf main_arg2
  let main_cst_2 : FVec F S_ .f32 := constant S_ .f32 0x7F800000#32
  let main_v10 : FVec F S1x512x64 .f32 := broadcastInDim S1x512x64 ![] bcast_S_S1x512x64 main_cst_2
  let main_v11 : IVec S1x512x64 1 := cmpf .olt main_v9 main_v10
  let main_c_3 : IVec S_ 1 := constantI S_ 1 1#1
  let main_v12 : IVec S_ 1 := (fun x v => Host.reduce IntOp.andi x v reducesTo_S1x512x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S32x4096x512 : Shape := ⟨3, ![32, 4096, 512]⟩
abbrev S512x64 : Shape := ⟨2, ![512, 64]⟩
abbrev S1x512x64 : Shape := ⟨3, ![1, 512, 64]⟩
abbrev S64 : Shape := ⟨1, ![64]⟩
abbrev S_ : Shape := ⟨0, ![]⟩
abbrev S64x1 : Shape := ⟨2, ![64, 1]⟩
abbrev S64x512 : Shape := ⟨2, ![64, 512]⟩
abbrev S1x64x512 : Shape := ⟨3, ![1, 64, 512]⟩
abbrev S32x64x512 : Shape := ⟨3, ![32, 64, 512]⟩
abbrev S1x4096x512 : Shape := ⟨3, ![1, 4096, 512]⟩
abbrev S4096x512 : Shape := ⟨2, ![4096, 512]⟩
abbrev S64x4096 : Shape := ⟨2, ![64, 4096]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S32x512x64 : Shape := ⟨3, ![32, 512, 64]⟩
abbrev S32x32768 : Shape := ⟨2, ![32, 32768]⟩

abbrev nBuf : Space → Nat
  | .hbm => 22
  | .vmem => 8
  | .smem => 0
  | _ => 0

abbrev bufTy : (tb : Table) → Fin (tcTables nBuf tb) → BufTy
  | .hbm, ⟨0, _⟩ => ⟨S32x4096x512, .f32⟩
  | .hbm, ⟨1, _⟩ => ⟨S512x64, .f32⟩
  | .hbm, ⟨2, _⟩ => ⟨S1x512x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x512, .f32⟩
  | .hbm, ⟨18, _⟩ => ⟨S1x64x512, .f32⟩
  | .hbm, ⟨19, _⟩ => ⟨S32x64x512, .f32⟩
  | .hbm, ⟨20, _⟩ => ⟨S32x512x64, .f32⟩
  | .hbm, ⟨21, _⟩ => ⟨S32x32768, .f32⟩
  | .local _ .vmem, ⟨0, _⟩ => ⟨S1x4096x512, .f32⟩
  | .local _ .vmem, ⟨1, _⟩ => ⟨S1x4096x512, .f32⟩
  | .local _ .vmem, ⟨2, _⟩ => ⟨S64x512, .f32⟩
  | .local _ .vmem, ⟨3, _⟩ => ⟨S1x64x512, .f32⟩
  | .local _ .vmem, ⟨4, _⟩ => ⟨S64x1, .f32⟩
  | .local _ .vmem, ⟨5, _⟩ => ⟨S64x1, .f32⟩
  | .local _ .vmem, ⟨6, _⟩ => ⟨S1x64x512, .f32⟩
  | .local _ .vmem, ⟨7, _⟩ => ⟨S1x64x512, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64 : S_.BroadcastsInDim S64 (![] : Fin 0 → Fin S64.rank)
  shapeCasts_S64_S64x1 : S64.ShapeCasts S64x1
  transposes_S512x64_S64x512_1_0 : S512x64.Transposes [1, 0] S64x512
  transposes_S1x512x64_S1x64x512_0_2_1 : S1x512x64.Transposes [0, 2, 1] S1x64x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  reduces_S64x4096_S4096 : S64x4096.Reduces [0] S4096
  shapeCasts_S4096_S1x4096 : S4096.ShapeCasts S1x4096
  broadcasts_S1x4096_S64x4096 : S1x4096.Broadcasts S64x4096
  reduces_S64x4096_S64 : S64x4096.Reduces [1] S64
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  broadcasts_S64x1_S64x512 : S64x1.Broadcasts S64x512
  reduces_S64x512_S64 : S64x512.Reduces [1] S64
  reduces_S64x1_S1 : S64x1.Reduces [0] S1
  shapeCasts_S1_S1x1 : S1.ShapeCasts S1x1
  broadcasts_S1x1_S64x512 : S1x1.Broadcasts S64x512
  shapeCasts_S64x512_S1x64x512 : S64x512.ShapeCasts S1x64x512
  transposes_S32x64x512_S32x512x64_0_2_1 : S32x64x512.Transposes [0, 2, 1] S32x512x64
  shapeCasts_S32x512x64_S32x32768 : S32x512x64.ShapeCasts S32x32768
  dot_S64x512_S4096x512_S64x4096_1_1_0_0_n_n_wf : DotDims.WF S64x512 S4096x512 S64x4096 [1] [1] [0] [0] [] []
  dot_S64x4096_S4096x512_S64x512_1_0_0_1_n_n_wf : DotDims.WF S64x4096 S4096x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S32x4096x512.size a
  hwx0_0 : ∀ i : grid0.Coords, EltTy.bits .f32 = 32 ∨ (Rect.block (s := S32x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S1x64x512.size a
  hwx0_2 : ∀ i : grid0.Coords, EltTy.bits .f32 = 32 ∨ (Rect.block (s := S1x64x512) S1x64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x512.size a ≤ S32x64x512.size a
  hwx0_5 : ∀ i : grid0.Coords, EltTy.bits .f32 = 32 ∨ (Rect.block (s := S32x64x512) S1x64x512.size (cc0_transform_5 i) (hinb0_5 i)).WholeWords (EltTy.packing .f32)

variable [Facts₀]

def dot_S64x512_S4096x512_S64x4096_1_1_0_0_n_n : DotDims S64x512 S4096x512 S64x4096 where
  lhsContracting := [1]
  rhsContracting := [1]
  lhsNonContracting := [0]
  rhsNonContracting := [0]
  lhsBatch := []
  rhsBatch := []
  wf := dot_S64x512_S4096x512_S64x4096_1_1_0_0_n_n_wf
def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x64x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S512x64 : Shape := ⟨2, ![512, 64]⟩
abbrev S1x512x64 : Shape := ⟨3, ![1, 512, 64]⟩
abbrev S64 : Shape := ⟨1, ![64]⟩
abbrev S131072x512 : Shape := ⟨2, ![131072, 512]⟩
abbrev S131072x64 : Shape := ⟨2, ![131072, 64]⟩
abbrev S_ : Shape := ⟨0, ![]⟩
abbrev S1x64 : Shape := ⟨2, ![1, 64]⟩
abbrev S131072 : Shape := ⟨1, ![131072]⟩
abbrev S131072x1 : Shape := ⟨2, ![131072, 1]⟩
abbrev S32x4096x64 : Shape := ⟨3, ![32, 4096, 64]⟩
abbrev S32x64 : Shape := ⟨2, ![32, 64]⟩
abbrev S32x1x64 : Shape := ⟨3, ![32, 1, 64]⟩
abbrev S32x512x64 : Shape := ⟨3, ![32, 512, 64]⟩
abbrev S32x32768 : Shape := ⟨2, ![32, 32768]⟩
abbrev S32 : Shape := ⟨1, ![32]⟩
abbrev S32x1 : Shape := ⟨2, ![32, 1]⟩

abbrev nBuf : Space → Nat
  | .hbm => 69
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S512x64, .f32⟩
  | .hbm, ⟨2, _⟩ => ⟨S1x512x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S131072x512, .f32⟩
  | .hbm, ⟨8, _⟩ => ⟨S131072x64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S131072x64, .f32⟩
  | .hbm, ⟨15, _⟩ => ⟨S131072x64, .f32⟩
  | .hbm, ⟨16, _⟩ => ⟨S1x64, .f32⟩
  | .hbm, ⟨17, _⟩ => ⟨S131072x64, .f32⟩
  | .hbm, ⟨18, _⟩ => ⟨S131072x64, .f32⟩
  | .hbm, ⟨19, _⟩ => ⟨S1x64, .f32⟩
  | .hbm, ⟨20, _⟩ => ⟨S131072x64, .f32⟩
  | .hbm, ⟨21, _⟩ => ⟨S131072x64, .f32⟩
  | .hbm, ⟨22, _⟩ => ⟨S1x64, .f32⟩
  | .hbm, ⟨23, _⟩ => ⟨S131072x64, .f32⟩
  | .hbm, ⟨24, _⟩ => ⟨S131072x64, .f32⟩
  | .hbm, ⟨25, _⟩ => ⟨S_, .f32⟩
  | .hbm, ⟨26, _⟩ => ⟨S131072, .f32⟩
  | .hbm, ⟨27, _⟩ => ⟨S_, .f32⟩
  | .hbm, ⟨28, _⟩ => ⟨S131072, .f32⟩
  | .hbm, ⟨29, _⟩ => ⟨S131072, .f32⟩
  | .hbm, ⟨30, _⟩ => ⟨S131072x1, .f32⟩
  | .hbm, ⟨31, _⟩ => ⟨S131072x64, .f32⟩
  | .hbm, ⟨32, _⟩ => ⟨S131072x64, .f32⟩
  | .hbm, ⟨33, _⟩ => ⟨S131072x64, .f32⟩
  | .hbm, ⟨34, _⟩ => ⟨S_, .f32⟩
  | .hbm, ⟨35, _⟩ => ⟨S131072, .f32⟩
  | .hbm, ⟨36, _⟩ => ⟨S131072x1, .f32⟩
  | .hbm, ⟨37, _⟩ => ⟨S131072x64, .f32⟩
  | .hbm, ⟨38, _⟩ => ⟨S131072x64, .f32⟩
  | .hbm, ⟨39, _⟩ => ⟨S32x4096x64, .f32⟩
  | .hbm, ⟨40, _⟩ => ⟨S_, .f32⟩
  | .hbm, ⟨41, _⟩ => ⟨S32x64, .f32⟩
  | .hbm, ⟨42, _⟩ => ⟨S32x1x64, .f32⟩
  | .hbm, ⟨43, _⟩ => ⟨S32x512x64, .f32⟩
  | .hbm, ⟨44, _⟩ => ⟨S32x512x64, .f32⟩
  | .hbm, ⟨45, _⟩ => ⟨S32x512x64, .f32⟩
  | .hbm, ⟨46, _⟩ => ⟨S32x512x64, .f32⟩
  | .hbm, ⟨47, _⟩ => ⟨S32x512x64, .f32⟩
  | .hbm, ⟨48, _⟩ => ⟨S32x512x64, .f32⟩
  | .hbm, ⟨49, _⟩ => ⟨S_, .f32⟩
  | .hbm, ⟨50, _⟩ => ⟨S32x64, .f32⟩
  | .hbm, ⟨51, _⟩ => ⟨S32x1x64, .f32⟩
  | .hbm, ⟨52, _⟩ => ⟨S32x1x64, .f32⟩
  | .hbm, ⟨53, _⟩ => ⟨S_, .f32⟩
  | .hbm, ⟨54, _⟩ => ⟨S32x1x64, .f32⟩
  | .hbm, ⟨55, _⟩ => ⟨S32x1x64, .f32⟩
  | .hbm, ⟨56, _⟩ => ⟨S32x512x64, .f32⟩
  | .hbm, ⟨57, _⟩ => ⟨S32x512x64, .f32⟩
  | .hbm, ⟨58, _⟩ => ⟨S32x32768, .f32⟩
  | .hbm, ⟨59, _⟩ => ⟨S32x32768, .f32⟩
  | .hbm, ⟨60, _⟩ => ⟨S_, .f32⟩
  | .hbm, ⟨61, _⟩ => ⟨S32, .f32⟩
  | .hbm, ⟨62, _⟩ => ⟨S32x1, .f32⟩
  | .hbm, ⟨63, _⟩ => ⟨S32x1, .f32⟩
  | .hbm, ⟨64, _⟩ => ⟨S_, .f32⟩
  | .hbm, ⟨65, _⟩ => ⟨S32x1, .f32⟩
  | .hbm, ⟨66, _⟩ => ⟨S32x1, .f32⟩
  | .hbm, ⟨67, _⟩ => ⟨S32x32768, .f32⟩
  | .hbm, ⟨68, _⟩ => ⟨S32x32768, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_call0_v2 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call1_v0 : Ref sig .tc := ⟨.hbm, 59, rfl⟩
abbrev main_call1_cst : Ref sig .tc := ⟨.hbm, 60, rfl⟩
abbrev main_call1_v1 : Ref sig .tc := ⟨.hbm, 61, rfl⟩
abbrev main_call1_v2 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  shapeCasts_S32x4096x512_S131072x512 : S32x4096x512.ShapeCasts S131072x512
  bcast_S_S64 : S_.BroadcastsInDim S64 (![] : Fin 0 → Fin S64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  reducesTo_S131072x64_S131072_d1 : S131072x64.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  shapeCasts_S131072x64_S32x4096x64 : S131072x64.ShapeCasts S32x4096x64
  reducesTo_S32x4096x64_S32x64_d1 : S32x4096x64.ReducesTo [1] S32x64
  bcast_S32x64_S32x1x64_0_2 : S32x64.BroadcastsInDim S32x1x64 (![0, 2] : Fin 2 → Fin S32x1x64.rank)
  bcast_S32x1x64_S32x512x64_0_1_2 : S32x1x64.BroadcastsInDim S32x512x64 (![0, 1, 2] : Fin 3 → Fin S32x512x64.rank)
  bcast_S1x512x64_S32x512x64_0_1_2 : S1x512x64.BroadcastsInDim S32x512x64 (![0, 1, 2] : Fin 3 → Fin S32x512x64.rank)
  reducesTo_S32x512x64_S32x64_d1 : S32x512x64.ReducesTo [1] S32x64
  bcast_S_S32x1x64 : S_.BroadcastsInDim S32x1x64 (![] : Fin 0 → Fin S32x1x64.rank)
  shapeCasts_S32x512x64_S32x32768 : S32x512x64.ShapeCasts S32x32768
  reducesTo_S32x32768_S32_d1 : S32x32768.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32768_0_1 : S32x1.BroadcastsInDim S32x32768 (![0, 1] : Fin 2 → Fin S32x32768.rank)
  dot_S131072x512_S512x64_S131072x64_1_0_0_1_n_n_wf : DotDims.WF S131072x512 S512x64 S131072x64 [1] [0] [0] [1] [] []
  dot_S32x4096x512_S32x4096x64_S32x512x64_1_1_2_2_0_0_wf : DotDims.WF S32x4096x512 S32x4096x64 S32x512x64 [1] [1] [2] [2] [0] [0]

variable [Facts₀]

def dot_S131072x512_S512x64_S131072x64_1_0_0_1_n_n : DotDims S131072x512 S512x64 S131072x64 where
  lhsContracting := [1]
  rhsContracting := [0]
  lhsNonContracting := [0]
  rhsNonContracting := [1]
  lhsBatch := []
  rhsBatch := []
  wf := dot_S131072x512_S512x64_S131072x64_1_0_0_1_n_n_wf
def dot_S32x4096x512_S32x4096x64_S32x512x64_1_1_2_2_0_0 : DotDims S32x4096x512 S32x4096x64 S32x512x64 where
  lhsContracting := [1]
  rhsContracting := [1]
  lhsNonContracting := [2]
  rhsNonContracting := [2]
  lhsBatch := [0]
  rhsBatch := [0]
  wf := dot_S32x4096x512_S32x4096x64_S32x512x64_1_1_2_2_0_0_wf

class Facts : Prop extends Facts₀ where

variable [Facts]
-- ==== Proof.LibColumnCast.lean ====
/-
  A vector kept as a column, read at an index given by coordinates: an [a] array cast to [a, 1] reads, at (r, u), the
  entry r, whatever the unit coordinate u. (The keepdims form of a per-row reduction's result; the row counterpart
  [a] → [1, a] is the library's, and this is stated in the same style.)
-/
import Idealize.ShloMosaic.Lib.Pipeline.Value
import Idealize.ShloMosaic.Lib.ValueIdx

namespace Cert.ColumnCast

open Idealize.ShloMosaic Idealize.ShloMosaic.ValueIdx

variable {α : Type}

/-- An `[a]` array cast to `[a, 1]` reads, at `(r, u)`, the operand at `r`: the two indices have the same row-major
    position, `r · 1 + 0`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.ColumnCast
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.Spec.lean ====
/-
  Soft assignment of descriptors to clusters, the residual sums built from it, and their two normalisations, as
  functions on the extended reals; and the two laws that relate different arrangements of the same computation.

  One batch has 4096 descriptors x_n in dimension 512 and 64 clusters. From a table of scores s(n, k):
    peak(n)    = sup_k s(n, k)
    ex(n, k)   = exp(s(n, k) - peak(n))
    mass(n)    = sum_k ex(n, k)
    asg(n, k)  = ex(n, k) / mass(n)                      (a softmax over the clusters)
    asum(k)    = sum_n asg(n, k)
    resid(d,k) = sum_n asg(n, k) * x(n, d) - asum(k) * c2(d, k)
  Each cluster's column of resid is divided by max(its Euclidean norm, floor), and then the whole 512 x 64 table by
  max(its Euclidean norm, floor).

  The scores come from a projection L = sum_d x(n, d) * c(d, k) through an affine map per cluster, written either as
  ((L - mu) * s) * w + b or, with the constants folded, as L * (w * s) + (b - (mu * w) * s), where
  s = 1 / sqrt(var + eps). For real L, mu, w, b and real var >= 0 the factor s is a real number and the two forms are
  equal by distributivity; with an infinite s they need not be.
-/
import Idealize.ShloMosaic.PureOps.Ideal
import proofs.«147578_j11888469475892_2_alg».proof.Proof.LibBlockSum

noncomputable section

namespace Cert.Vlad

open Idealize.ShloMosaic

/-- The floor under both norms: the f32 pattern both programs carry. -/
abbrev normFloor : EReal := Ideal.ofBits .f32 0x2B8CBCCC#32
/-- The variance offset: the f32 pattern both programs carry. -/
abbrev varEps : EReal := Ideal.ofBits .f32 0x3727C5AC#32

/-! ## One batch: scores to residual sums -/

section OneBatch
variable (S : Fin 4096 → Fin 64 → EReal) (X : Fin 4096 → Fin 512 → EReal) (C2 : Fin 512 → Fin 64 → EReal)

def peak (n : Fin 4096) : EReal := ⨆ k : Fin 64, S n k
def ex (n : Fin 4096) (k : Fin 64) : EReal := Ideal.exp (S n k - peak S n)
def mass (n : Fin 4096) : EReal := ∑ k : Fin 64, ex S n k
def asg (n : Fin 4096) (k : Fin 64) : EReal := Ideal.div (ex S n k) (mass S n)
def asum (k : Fin 64) : EReal := ∑ n : Fin 4096, asg S n k
def resid (d : Fin 512) (k : Fin 64) : EReal := (∑ n : Fin 4096, asg S n k * X n d) - asum S k * C2 d k

end OneBatch

/-! ## The two normalisations -/

section Normalise
variable (v : Fin 512 → Fin 64 → EReal)

def colNorm (k : Fin 64) : EReal := max (Ideal.sqrt (∑ d : Fin 512, v d k * v d k)) normFloor
def colUnit (d : Fin 512) (k : Fin 64) : EReal := Ideal.div (v d k) (colNorm v k)
def allNorm : EReal := max (Ideal.sqrt (∑ k : Fin 64, ∑ d : Fin 512, v d k * v d k)) normFloor
def allUnit (d : Fin 512) (k : Fin 64) : EReal := Ideal.div (v d k) (allNorm v)

end Normalise

/-- One batch's result table from its scores, its descriptors and the second cluster table. -/
def vlad (S : Fin 4096 → Fin 64 → EReal) (X : Fin 4096 → Fin 512 → EReal) (C2 : Fin 512 → Fin 64 → EReal)
    (d : Fin 512) (k : Fin 64) : EReal :=
  allUnit (colUnit (resid S X C2)) d k

/-- The result laid out as 32 rows of 512 * 64 entries, entry j of a row being (d, k) = (j / 64, j % 64). -/
def flat (T : Fin 32 → Fin 512 → Fin 64 → EReal) (b : Fin 32) (j : Fin 32768) : EReal :=
  T b ⟨j.val / 64, by have := j.isLt; omega⟩ ⟨j.val % 64, Nat.mod_lt _ (by norm_num)⟩

/-! ## The scores: two spellings of one affine map -/

def invStd (v : EReal) : EReal := Ideal.rsqrt (v + varEps)
/-- Centre, scale, weight, shift. -/
def plainAffine (L w b μ v : EReal) : EReal := (L - μ) * invStd v * w + b
/-- The same with the per-cluster constants multiplied out beforehand. -/
def foldedAffine (L w b μ v : EReal) : EReal := L * (w * invStd v) + (b - μ * w * invStd v)

/-- The scores of one batch, in the plain spelling over the projection sum_d x(n, d) * c(d, k). -/
def scores (X : Fin 4096 → Fin 512 → EReal) (C : Fin 512 → Fin 64 → EReal) (w b μ v : Fin 64 → EReal)
    (n : Fin 4096) (k : Fin 64) : EReal :=
  plainAffine (∑ d : Fin 512, X n d * C d k) (w k) (b k) (μ k) (v k)
/-- The same in the folded spelling, over the projection with its factors in the other order. -/
def scoresFolded (X : Fin 4096 → Fin 512 → EReal) (C : Fin 512 → Fin 64 → EReal) (w b μ v : Fin 64 → EReal)
    (n : Fin 4096) (k : Fin 64) : EReal :=
  foldedAffine (∑ d : Fin 512, C d k * X n d) (w k) (b k) (μ k) (v k)

/-- The variance offset is a positive real number (its pattern is a positive normal f32). -/
theorem varEps_pos : ∃ e : ℝ, 0 < e ∧ varEps = (e : EReal) := by
  refine ⟨10995116 / 1099511627776, by norm_num, ?_⟩
  simp [varEps, Ideal.ofBits, Ideal.ieee, -EReal.coe_mul]; norm_num

/-- For a real variance that is not negative, 1 / sqrt(var + eps) is a real number. -/
theorem invStd_real (v : ℝ) (hv : 0 ≤ v) : ∃ s : ℝ, invStd (v : EReal) = (s : EReal) := by
  obtain ⟨e, he, hE⟩ := varEps_pos
  refine ⟨(Real.sqrt (v + e))⁻¹, ?_⟩
  unfold invStd
  rw [hE, ← EReal.coe_add, Ideal.rsqrt_coe, if_neg (by linarith), if_neg (by linarith)]

/-- A finite sum of real numbers, read in the extended reals, is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Distributivity on the reals: the folded affine map is the plain one. -/
theorem folded_eq_plain (L w b μ v : ℝ) (hv : 0 ≤ v) :
    foldedAffine (L : EReal) w b μ v = plainAffine (L : EReal) w b μ v := by
  obtain ⟨s, hs⟩ := invStd_real v hv
  unfold foldedAffine plainAffine
  rw [hs, ← EReal.coe_mul, ← EReal.coe_mul, ← EReal.coe_mul, ← EReal.coe_mul, ← EReal.coe_sub, ← EReal.coe_add,
    ← EReal.coe_sub, ← EReal.coe_mul, ← EReal.coe_mul, ← EReal.coe_add]
  congr 1; ring

/-- With every input a real number and no variance negative, the two spellings give the same scores. -/
theorem scoresFolded_eq_scores (X : Fin 4096 → Fin 512 → EReal) (C : Fin 512 → Fin 64 → EReal) (w b μ v : Fin 64 → EReal)
    (hX : ∀ n d, ∃ r : ℝ, X n d = (r : EReal)) (hC : ∀ d k, ∃ r : ℝ, C d k = (r : EReal))
    (hw : ∀ k, ∃ r : ℝ, w k = (r : EReal)) (hb : ∀ k, ∃ r : ℝ, b k = (r : EReal))
    (hμ : ∀ k, ∃ r : ℝ, μ k = (r : EReal)) (hv : ∀ k, ∃ r : ℝ, 0 ≤ r ∧ v k = (r : EReal)) :
    scoresFolded X C w b μ v = scores X C w b μ v := by
  funext n k
  choose x hx using hX
  choose c hc using hC
  obtain ⟨w', hw'⟩ := hw k
  obtain ⟨b', hb'⟩ := hb k
  obtain ⟨μ', hμ'⟩ := hμ k
  obtain ⟨v', hv0, hv'⟩ := hv k
  unfold scoresFolded scores
  have hL : (∑ d : Fin 512, C d k * X n d) = ((∑ d : Fin 512, x n d * c d k : ℝ) : EReal) := by
    rw [← sum_coe]
    exact Finset.sum_congr rfl fun d _ => by rw [hx, hc, ← EReal.coe_mul, mul_comm]
  have hL' : (∑ d : Fin 512, X n d * C d k) = ((∑ d : Fin 512, x n d * c d k : ℝ) : EReal) := by
    rw [← sum_coe]
    exact Finset.sum_congr rfl fun d _ => by rw [hx, hc, ← EReal.coe_mul]
  rw [hL, hL', hw', hb', hμ', hv']
  exact folded_eq_plain _ _ _ _ _ hv0

/-! ## The whole table's norm over a flattened index -/

/-- A sum over the 512 * 64 flattened entries is the sum over clusters of the sums over dimensions. -/
theorem sum_flat (g : Fin 32768 → EReal) :
    ∑ j, g j = ∑ k : Fin 64, ∑ d : Fin 512, g ⟨d.val * 64 + k.val, by have := d.isLt; have := k.isLt; omega⟩ := by
  rw [Finset.sum_comm]
  exact BlockSum.sum_fin_blocks 512 64 g

end Cert.Vlad

end
-- ==== Proof.Found.lean ====
/-
  What the region finds in the arrays its windows stage, after the host operations that precede it: the first cluster
  table transposed to 64 x 512, the second transposed to 1 x 64 x 512, and the two per-cluster columns
  scale(k) = w(k) * s(k) and shift(k) = b(k) - (mu(k) * w(k)) * s(k) with s(k) = 1 / sqrt(var(k) + eps), each as a 64 x 1 column.
-/
import proofs.«147578_j11888469475892_2_alg».proof.Proof.Gen.KernelIdeal.Frame
import Idealize.ShloMosaic.Lib.StableHlo.Run
import Idealize.ShloMosaic.Lib.ValueLayout
import proofs.«147578_j11888469475892_2_alg».proof.Proof.LibColumnCast
import proofs.«147578_j11888469475892_2_alg».proof.Proof.Spec

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The seven argument arrays on core c, as launched. -/
abbrev a0 (c : Dev nD) : S32x4096x512.Idx → EReal := m ((c : Thread nD τ).loc main_arg0)
abbrev a1 (c : Dev nD) : S512x64.Idx → EReal := m ((c : Thread nD τ).loc main_arg1)
abbrev a2 (c : Dev nD) : S1x512x64.Idx → EReal := m ((c : Thread nD τ).loc main_arg2)
abbrev a3 (c : Dev nD) : S64.Idx → EReal := m ((c : Thread nD τ).loc main_arg3)
abbrev a4 (c : Dev nD) : S64.Idx → EReal := m ((c : Thread nD τ).loc main_arg4)
abbrev a5 (c : Dev nD) : S64.Idx → EReal := m ((c : Thread nD τ).loc main_arg5)
abbrev a6 (c : Dev nD) : S64.Idx → EReal := m ((c : Thread nD τ).loc main_arg6)

/-- The first cluster table as the region finds it: transposed. -/
theorem found_ct (c : Dev nD) :
    (V m c main_v9 : S64x512.Idx → EReal) = transpose S64x512 [1, 0] (a1 m c) transposes_S512x64_S64x512_1_0 := by
  show StableHlo.after hostOps0 (fun b => m (c, b)) (Proc.devRef .tc main_v9) = _
  after_results

/-- The second cluster table as the region finds it: its last two axes transposed. -/
theorem found_c2t (c : Dev nD) :
    (V m c main_v10 : S1x64x512.Idx → EReal) = transpose S1x64x512 [0, 2, 1] (a2 m c) transposes_S1x512x64_S1x64x512_0_2_1 := by
  show StableHlo.after hostOps0 (fun b => m (c, b)) (Proc.devRef .tc main_v10) = _
  after_results

/-- The scale column as the region finds it. -/
theorem found_scale (c : Dev nD) :
    (V m c main_v4 : S64x1.Idx → EReal)
      = shapeCast S64x1 (mulf (a3 m c) (Host.rsqrt (F := Ideal) (addf (a6 m c) (broadcastInDim S64 ![] bcast_S_S64 (constant (F := Ideal) S_ .f32 0x3727C5AC#32)))))
          shapeCasts_S64_S64x1 := by
  show StableHlo.after hostOps0 (fun b => m (c, b)) (Proc.devRef .tc main_v4) = _
  after_results; rfl

/-- The shift column as the region finds it. -/
theorem found_shift (c : Dev nD) :
    (V m c main_v8 : S64x1.Idx → EReal)
      = shapeCast S64x1 (subf (a4 m c) (mulf (mulf (a5 m c) (a3 m c))
          (Host.rsqrt (F := Ideal) (addf (a6 m c) (broadcastInDim S64 ![] bcast_S_S64 (constant (F := Ideal) S_ .f32 0x3727C5AC#32))))))
          shapeCasts_S64_S64x1 := by
  show StableHlo.after hostOps0 (fun b => m (c, b)) (Proc.devRef .tc main_v8) = _
  after_results; rfl

/-! ## The same, entry by entry -/

theorem found_ct_apply (c : Dev nD) (k : Fin 64) (d : Fin 512) : V m c main_v9 (ix2 k d) = a1 m c (ix2 d k) := by
  rw [found_ct]; exact transpose_ix2_apply _ _ k d

theorem found_c2t_apply (c : Dev nD) (k : Fin 64) (d : Fin 512) :
    V m c main_v10 (ix3 (0 : Fin 1) k d) = a2 m c (ix3 (0 : Fin 1) d k) := by
  rw [found_c2t]; exact transpose_ix3_021_apply _ _ (0 : Fin 1) k d

theorem found_scale_apply (c : Dev nD) (k : Fin 64) :
    V m c main_v4 (ix2 k (0 : Fin 1)) = a3 m c (ix1 k) * Cert.Vlad.invStd (a6 m c (ix1 k)) := by
  rw [found_scale, Cert.ColumnCast.shapeCast_a_a1_apply]; rfl

theorem found_shift_apply (c : Dev nD) (k : Fin 64) :
    V m c main_v8 (ix2 k (0 : Fin 1))
      = a4 m c (ix1 k) - a5 m c (ix1 k) * a3 m c (ix1 k) * Cert.Vlad.invStd (a6 m c (ix1 k)) := by
  rw [found_shift, Cert.ColumnCast.shapeCast_a_a1_apply]; rfl

end Cert.KernelIdeal.Hand

end
-- ==== Proof.BodyDots.lean ====
/-
  The kernel's two matrix products, read at an output index as sums over the contracted coordinate.

  The first contracts the LAST axis of both operands (a product with the second operand transposed): for a 64 x 512
  left operand and a 4096 x 512 right operand the entry (k, n) is the sum over d of left(k, d) * right(n, d). The second
  is a plain product of a 64 x 4096 by a 4096 x 512 matrix: the entry (k, d) is the sum over n of left(k, n) * right(n, d).
  Both start from a zero accumulator, and on the extended reals a product is the exact sum, whatever the operands' formats.
-/
import proofs.«147578_j11888469475892_2_alg».proof.Proof.Gen.KernelIdeal.Skeleton
import Idealize.ShloMosaic.Lib.ValueIdx
import Idealize.ShloMosaic.PureOps.Ideal.Laws

noncomputable section

namespace Cert.KernelBody

open Idealize.ShloMosaic Idealize.ShloMosaic.ValueIdx Cert.KernelIdeal Cert.KernelIdeal.Gen

/-! ## Which operand coordinate each output or contraction coordinate feeds -/

theorem scoreDot_lhs0 (i : S64x4096.Idx) (q : dot_S64x512_S4096x512_S64x4096_1_1_0_0_n_n.contr.Idx) :
    (dot_S64x512_S4096x512_S64x4096_1_1_0_0_n_n.lhsIdx i q 0).val = (i 0).val := by
  unfold DotDims.lhsIdx
  rw [dif_neg (show ¬(0 : Fin S64x512.rank) ∈ dot_S64x512_S4096x512_S64x4096_1_1_0_0_n_n.lhsBatch by decide), dif_pos (show (0 : Fin S64x512.rank) ∈ dot_S64x512_S4096x512_S64x4096_1_1_0_0_n_n.lhsNonContracting by decide)]
  rfl
theorem scoreDot_lhs1 (i : S64x4096.Idx) (q : dot_S64x512_S4096x512_S64x4096_1_1_0_0_n_n.contr.Idx) :
    (dot_S64x512_S4096x512_S64x4096_1_1_0_0_n_n.lhsIdx i q 1).val = (q ⟨0, by decide⟩).val :=
  dot_S64x512_S4096x512_S64x4096_1_1_0_0_n_n.lhsIdx_val_of_single rfl i q
theorem scoreDot_rhs0 (i : S64x4096.Idx) (q : dot_S64x512_S4096x512_S64x4096_1_1_0_0_n_n.contr.Idx) :
    (dot_S64x512_S4096x512_S64x4096_1_1_0_0_n_n.rhsIdx i q 0).val = (i 1).val := by
  unfold DotDims.rhsIdx
  rw [dif_neg (show ¬(0 : Fin S4096x512.rank) ∈ dot_S64x512_S4096x512_S64x4096_1_1_0_0_n_n.rhsBatch by decide), dif_pos (show (0 : Fin S4096x512.rank) ∈ dot_S64x512_S4096x512_S64x4096_1_1_0_0_n_n.rhsNonContracting by decide)]
  rfl
theorem scoreDot_rhs1 (i : S64x4096.Idx) (q : dot_S64x512_S4096x512_S64x4096_1_1_0_0_n_n.contr.Idx) :
    (dot_S64x512_S4096x512_S64x4096_1_1_0_0_n_n.rhsIdx i q 1).val = (q ⟨0, by decide⟩).val :=
  dot_S64x512_S4096x512_S64x4096_1_1_0_0_n_n.rhsIdx_val_of_single rfl i q
theorem sumDot_lhs0 (i : S64x512.Idx) (q : dot_S64x4096_S4096x512_S64x512_1_0_0_1_n_n.contr.Idx) :
    (dot_S64x4096_S4096x512_S64x512_1_0_0_1_n_n.lhsIdx i q 0).val = (i 0).val := by
  unfold DotDims.lhsIdx
  rw [dif_neg (show ¬(0 : Fin S64x4096.rank) ∈ dot_S64x4096_S4096x512_S64x512_1_0_0_1_n_n.lhsBatch by decide), dif_pos (show (0 : Fin S64x4096.rank) ∈ dot_S64x4096_S4096x512_S64x512_1_0_0_1_n_n.lhsNonContracting by decide)]
  rfl
theorem sumDot_lhs1 (i : S64x512.Idx) (q : dot_S64x4096_S4096x512_S64x512_1_0_0_1_n_n.contr.Idx) :
    (dot_S64x4096_S4096x512_S64x512_1_0_0_1_n_n.lhsIdx i q 1).val = (q ⟨0, by decide⟩).val :=
  dot_S64x4096_S4096x512_S64x512_1_0_0_1_n_n.lhsIdx_val_of_single rfl i q
theorem sumDot_rhs0 (i : S64x512.Idx) (q : dot_S64x4096_S4096x512_S64x512_1_0_0_1_n_n.contr.Idx) :
    (dot_S64x4096_S4096x512_S64x512_1_0_0_1_n_n.rhsIdx i q 0).val = (q ⟨0, by decide⟩).val :=
  dot_S64x4096_S4096x512_S64x512_1_0_0_1_n_n.rhsIdx_val_of_single rfl i q
theorem sumDot_rhs1 (i : S64x512.Idx) (q : dot_S64x4096_S4096x512_S64x512_1_0_0_1_n_n.contr.Idx) :
    (dot_S64x4096_S4096x512_S64x512_1_0_0_1_n_n.rhsIdx i q 1).val = (i 1).val := by
  unfold DotDims.rhsIdx
  rw [dif_neg (show ¬(1 : Fin S4096x512.rank) ∈ dot_S64x4096_S4096x512_S64x512_1_0_0_1_n_n.rhsBatch by decide), dif_pos (show (1 : Fin S4096x512.rank) ∈ dot_S64x4096_S4096x512_S64x512_1_0_0_1_n_n.rhsNonContracting by decide)]
  rfl

/-! ## The two products at an index -/

/-- The product that contracts both last axes: entry (k, n) is the sum over d of l(k, d) * r(n, d). -/
theorem scoreDot_apply {φ₁ φ₂ : FTy} (l : FVec Ideal S64x512 φ₁) (r : FVec Ideal S4096x512 φ₂) (k : Fin 64) (n : Fin 4096) :
    matmul dot_S64x512_S4096x512_S64x4096_1_1_0_0_n_n none l r (constant (F := Ideal) S64x4096 .f32 0x00000000#32) (ix2 k n)
      = ∑ d : Fin 512, l (ix2 k d) * r (ix2 n d) := by
  simp only [matmul]
  rw [Ideal.matmul_constant_zero_apply, ← Equiv.sum_comp (contrEquiv1 dot_S64x512_S4096x512_S64x4096_1_1_0_0_n_n 512 rfl rfl).symm]
  refine Finset.sum_congr rfl fun d _ => ?_
  have hd := contrEquiv1_symm_val dot_S64x512_S4096x512_S64x4096_1_1_0_0_n_n 512 rfl rfl d
  have el : dot_S64x512_S4096x512_S64x4096_1_1_0_0_n_n.lhsIdx (ix2 k n) ((contrEquiv1 dot_S64x512_S4096x512_S64x4096_1_1_0_0_n_n 512 rfl rfl).symm d) = ix2 k d := funext fun a => Fin.ext (by
    match a with
    | ⟨0, _⟩ => exact scoreDot_lhs0 _ _
    | ⟨1, _⟩ => exact (scoreDot_lhs1 _ _).trans hd)
  have er : dot_S64x512_S4096x512_S64x4096_1_1_0_0_n_n.rhsIdx (ix2 k n) ((contrEquiv1 dot_S64x512_S4096x512_S64x4096_1_1_0_0_n_n 512 rfl rfl).symm d) = ix2 n d := funext fun a => Fin.ext (by
    match a with
    | ⟨0, _⟩ => exact scoreDot_rhs0 _ _
    | ⟨1, _⟩ => exact (scoreDot_rhs1 _ _).trans hd)
  rw [el, er]

/-- The plain product: entry (k, d) is the sum over n of l(k, n) * r(n, d). -/
theorem sumDot_apply {φ₁ φ₂ : FTy} (l : FVec Ideal S64x4096 φ₁) (r : FVec Ideal S4096x512 φ₂) (k : Fin 64) (d : Fin 512) :
    matmul dot_S64x4096_S4096x512_S64x512_1_0_0_1_n_n none l r (constant (F := Ideal) S64x512 .f32 0x00000000#32) (ix2 k d)
      = ∑ n : Fin 4096, l (ix2 k n) * r (ix2 n d) := by
  simp only [matmul]
  rw [Ideal.matmul_constant_zero_apply, ← Equiv.sum_comp (contrEquiv1 dot_S64x4096_S4096x512_S64x512_1_0_0_1_n_n 4096 rfl rfl).symm]
  refine Finset.sum_congr rfl fun n _ => ?_
  have hn := contrEquiv1_symm_val dot_S64x4096_S4096x512_S64x512_1_0_0_1_n_n 4096 rfl rfl n
  have el : dot_S64x4096_S4096x512_S64x512_1_0_0_1_n_n.lhsIdx (ix2 k d) ((contrEquiv1 dot_S64x4096_S4096x512_S64x512_1_0_0_1_n_n 4096 rfl rfl).symm n) = ix2 k n := funext fun a => Fin.ext (by
    match a with
    | ⟨0, _⟩ => exact sumDot_lhs0 _ _
    | ⟨1, _⟩ => exact (sumDot_lhs1 _ _).trans hn)
  have er : dot_S64x4096_S4096x512_S64x512_1_0_0_1_n_n.rhsIdx (ix2 k d) ((contrEquiv1 dot_S64x4096_S4096x512_S64x512_1_0_0_1_n_n 4096 rfl rfl).symm n) = ix2 n d := funext fun a => Fin.ext (by
    match a with
    | ⟨0, _⟩ => exact (sumDot_rhs0 _ _).trans hn
    | ⟨1, _⟩ => exact sumDot_rhs1 _ _)
  rw [el, er]

end Cert.KernelBody

end
-- ==== Proof.LibReduceExtremum.lean ====
/-
  Reductions by maximum and minimum over the extended reals, read as suprema and infima.

  On the extended reals `max` and `min` are the join and the meet of a complete lattice whose least
  element is `-∞` and whose greatest is `+∞`. A fold of `max` that starts from `-∞` over a finite
  family is therefore the supremum of the family, whatever the order of the fold, and a fold of `min`
  from `+∞` is its infimum. The statements below read the host's `reduce` and a kernel's
  `multi_reduction` that way: over every axis at once (the result has one index, and the value there
  is the supremum over every source index), and over one axis (the value at a result index is the
  supremum over that axis's coordinates). A supremum over all indices does not change when the
  family is re-indexed along a surjection, and it is the supremum over the result indices of the
  one-axis suprema.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

namespace Idealize.ShloMosaic.ReduceExtremum

open Idealize.ShloMosaic

/-! ## The two infinities as bit patterns -/

/-- The f32 pattern `0xFF800000` (sign 1, exponent all ones, fraction 0) denotes `-∞`, the least extended real. -/
theorem ofBits_negInf_f32 : Ideal.ofBits .f32 0xFF800000#32 = ⊥ := by simp [Ideal.ofBits, Ideal.ieee]

/-- The f32 pattern `0x7F800000` (sign 0, exponent all ones, fraction 0) denotes `+∞`, the greatest extended real. -/
theorem ofBits_posInf_f32 : Ideal.ofBits .f32 0x7F800000#32 = ⊤ := by simp [Ideal.ofBits, Ideal.ieee]

/-! ## Folds of `max` from `-∞` and of `min` from `+∞` -/

/-- A fold of `max` from `-∞` over a finite set is the supremum over the set. -/
theorem fold_max_bot {ι : Type} (S : Finset ι) (x : ι → EReal) :
    S.fold max ⊥ x = ⨆ i ∈ S, x i := by
  rw [← Finset.sup_eq_iSup]; rfl

/-- A fold of `min` from `+∞` over a finite set is the infimum over the set. -/
theorem fold_min_top {ι : Type} (S : Finset ι) (x : ι → EReal) :
    S.fold min ⊤ x = ⨅ i ∈ S, x i := by
  rw [← Finset.inf_eq_iInf]; rfl

/-- Over a whole finite type: the fold of `max` from `-∞` is the supremum of the family. -/
theorem fold_max_bot_univ {ι : Type} [Fintype ι] (x : ι → EReal) :
    (Finset.univ : Finset ι).fold max ⊥ x = ⨆ i, x i := by
  rw [fold_max_bot]; simp

/-- Over a whole finite type: the fold of `min` from `+∞` is the infimum of the family. -/
theorem fold_min_top_univ {ι : Type} [Fintype ι] (x : ι → EReal) :
    (Finset.univ : Finset ι).fold min ⊤ x = ⨅ i, x i := by
  rw [fold_min_top]; simp

/-! ## A reduction over every axis: the supremum, or the infimum, of the whole array -/

section AllAxes
variable {s t u : Shape} {axes : List (Fin s.rank)} {φ : FTy}

/-- A result shape of rank zero has no axis, so each of its axes has size one. -/
theorem size_eq_one_of_rank_zero {d : Fin 0 → Nat} (b : Fin (⟨0, d⟩ : Shape).rank) : (⟨0, d⟩ : Shape).size b = 1 :=
  b.elim0

/-- The host's reduction by `max` into a shape whose every axis has size one (every source index reduces to the one
    result index), started from `-∞`, is at that index the supremum of the source over ALL its indices. -/
theorem hostReduce_max_all (x : s.Idx → EReal) (init : u.Idx → EReal) (h : s.ReducesTo axes t) (hu : 0 < u.numel)
    (ht : ∀ b, t.size b = 1) (hinit : init (Shape.Idx.first hu) = ⊥) (j : t.Idx) :
    Host.reduce (FloatOps.maximumf (F := Ideal) (φ := φ)) x init h hu j = ⨆ i : s.Idx, x i := by
  rw [Host.reduce_eq_fold, hinit,
    Finset.filter_true_of_mem fun i _ => funext fun b => Fin.ext (by
      have := (h.drop i b).isLt; have := (j b).isLt; have := ht b; omega)]
  exact fold_max_bot_univ x

/-- The same for `min` started from `+∞`: the infimum of the source over all its indices. -/
theorem hostReduce_min_all (x : s.Idx → EReal) (init : u.Idx → EReal) (h : s.ReducesTo axes t) (hu : 0 < u.numel)
    (ht : ∀ b, t.size b = 1) (hinit : init (Shape.Idx.first hu) = ⊤) (j : t.Idx) :
    Host.reduce (FloatOps.minimumf (F := Ideal) (φ := φ)) x init h hu j = ⨅ i : s.Idx, x i := by
  rw [Host.reduce_eq_fold, hinit,
    Finset.filter_true_of_mem fun i _ => funext fun b => Fin.ext (by
      have := (h.drop i b).isLt; have := (j b).isLt; have := ht b; omega)]
  exact fold_min_top_univ x

/-- In the form a program prints it: the f32 maximum over all axes, from the constant `0xFF800000` (`-∞`), is the
    constant array whose value is the supremum of the source. -/
theorem hostReduce_max_all_negInf (x : FVec Ideal s .f32) (h : s.ReducesTo axes t) (hu : 0 < u.numel)
    (ht : ∀ b, t.size b = 1) :
    Host.reduce FloatOps.maximumf x (constant (F := Ideal) u .f32 0xFF800000#32) h hu = fun _ => ⨆ i : s.Idx, x i :=
  funext fun j => hostReduce_max_all (φ := .f32) x _ h hu ht ofBits_negInf_f32 j

/-- The f32 minimum over all axes, from the constant `0x7F800000` (`+∞`), is the constant array whose value is the
    infimum of the source. -/
theorem hostReduce_min_all_posInf (x : FVec Ideal s .f32) (h : s.ReducesTo axes t) (hu : 0 < u.numel)
    (ht : ∀ b, t.size b = 1) :
    Host.reduce FloatOps.minimumf x (constant (F := Ideal) u .f32 0x7F800000#32) h hu = fun _ => ⨅ i : s.Idx, x i :=
  funext fun j => hostReduce_min_all (φ := .f32) x _ h hu ht ofBits_posInf_f32 j

/-- Into a result of rank zero (a scalar) no condition on the result's sizes is left. -/
theorem hostReduce_max_scalar_negInf {d : Fin 0 → Nat} (x : FVec Ideal s .f32) (h : s.ReducesTo axes ⟨0, d⟩)
    (hu : 0 < u.numel) :
    Host.reduce FloatOps.maximumf x (constant (F := Ideal) u .f32 0xFF800000#32) h hu = fun _ => ⨆ i : s.Idx, x i :=
  hostReduce_max_all_negInf x h hu size_eq_one_of_rank_zero

theorem hostReduce_min_scalar_posInf {d : Fin 0 → Nat} (x : FVec Ideal s .f32) (h : s.ReducesTo axes ⟨0, d⟩)
    (hu : 0 < u.numel) :
    Host.reduce FloatOps.minimumf x (constant (F := Ideal) u .f32 0x7F800000#32) h hu = fun _ => ⨅ i : s.Idx, x i :=
  hostReduce_min_all_posInf x h hu size_eq_one_of_rank_zero

end AllAxes

/-! ## Re-indexing: a supremum over all indices does not see the arrangement -/

section Reindex
variable {s s' t t' u u' : Shape} {axes : List (Fin s.rank)} {axes' : List (Fin s'.rank)} {φ : FTy}

/-- The maximum over all axes of an array read through a surjective index map `e` (every source element is read at
    least once: a reshape, a transpose, their composite) is the maximum over all axes of the array itself. -/
theorem hostReduce_max_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊥) (hinit' : init' (Shape.Idx.first hu') = ⊥) (j : t.Idx) (j' : t'.Idx) :
    Host.reduce (FloatOps.maximumf (F := Ideal) (φ := φ)) (fun i => x (e i)) init' h' hu' j'
      = Host.reduce (FloatOps.maximumf (F := Ideal) (φ := φ)) x init h hu j := by
  rw [hostReduce_max_all (φ := φ) _ init' h' hu' ht' hinit', hostReduce_max_all (φ := φ) x init h hu ht hinit]
  exact he.iSup_comp x

/-- The same for the minimum over all axes. -/
theorem hostReduce_min_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊤) (hinit' : init' (Shape.Idx.first hu') = ⊤) (j : t.Idx) (j' : t'.Idx) :
    Host.reduce (FloatOps.minimumf (F := Ideal) (φ := φ)) (fun i => x (e i)) init' h' hu' j'
      = Host.reduce (FloatOps.minimumf (F := Ideal) (φ := φ)) x init h hu j := by
  rw [hostReduce_min_all (φ := φ) _ init' h' hu' ht' hinit', hostReduce_min_all (φ := φ) x init h hu ht hinit]
  exact he.iInf_comp x

/-- A reshape (the same elements in row-major order under another shape) reads every source element exactly once, so
    the supremum of the reshaped array is the supremum of the array. -/
theorem iSup_shapeCast (x : s.Idx → EReal) (h : s.ShapeCasts t) : ⨆ j : t.Idx, shapeCast t x h j = ⨆ i : s.Idx, x i :=
  (Shape.reshapeEquiv h).iSup_comp (g := x)

theorem iInf_shapeCast (x : s.Idx → EReal) (h : s.ShapeCasts t) : ⨅ j : t.Idx, shapeCast t x h j = ⨅ i : s.Idx, x i :=
  (Shape.reshapeEquiv h).iInf_comp (g := x)

/-- Every source index is read by some result index of a transpose: the result index whose coordinate on axis `b` is
    the source's coordinate on axis `perm[b]`. -/
theorem transposes_src_surjective (perm : List (Fin s.rank)) (h : s.Transposes perm t) :
    Function.Surjective (h.src) := by
  intro k
  let j : t.Idx := fun b => ⟨(k perm[b.cast h.2.1]).val, by rw [h.2.2 b]; exact (k _).isLt⟩
  exact ⟨j, transpose_apply perm (fun i : s.Idx => i) h j k fun _ => rfl⟩

/-- So the supremum of a transposed array is the supremum of the array. -/
theorem iSup_transpose (perm : List (Fin s.rank)) (x : s.Idx → EReal) (h : s.Transposes perm t) :
    ⨆ j : t.Idx, transpose t perm x h j = ⨆ i : s.Idx, x i :=
  (transposes_src_surjective perm h).iSup_comp x

theorem iInf_transpose (perm : List (Fin s.rank)) (x : s.Idx → EReal) (h : s.Transposes perm t) :
    ⨅ j : t.Idx, transpose t perm x h j = ⨅ i : s.Idx, x i :=
  (transposes_src_surjective perm h).iInf_comp x

/-- The largest absolute value (the supremum of `max x (-x)`) of a transposed array is that of the array. -/
theorem iSup_abs_transpose (perm : List (Fin s.rank)) (x : s.Idx → EReal) (h : s.Transposes perm t) :
    ⨆ j : t.Idx, max (transpose t perm x h j) (-(transpose t perm x h j)) = ⨆ i : s.Idx, max (x i) (-(x i)) :=
  iSup_transpose perm (fun i => max (x i) (-(x i))) h

/-- The largest absolute value of a reshaped array is that of the array. -/
theorem iSup_abs_shapeCast (x : s.Idx → EReal) (h : s.ShapeCasts t) :
    ⨆ j : t.Idx, max (shapeCast t x h j) (-(shapeCast t x h j)) = ⨆ i : s.Idx, max (x i) (-(x i)) :=
  iSup_shapeCast (fun i => max (x i) (-(x i))) h

end Reindex

/-! ## A reduction over one axis: the supremum over that axis's coordinates -/

section OneAxis
variable {s t u : Shape} {a : Fin s.rank} {φ : FTy}

/-- The host's reduction by `max` over ONE axis, started from `-∞`, is at result index `j` the supremum over the
    coordinates `k` of that axis of the source at `j` with `k` inserted on the axis. -/
theorem hostReduce_max_single (x : s.Idx → EReal) (init : u.Idx → EReal) (h' : s.ReducesTo [a] t) (h : s.Reduces [a] t)
    (hu : 0 < u.numel) (hinit : init (Shape.Idx.first hu) = ⊥) (j : t.Idx) :
    Host.reduce (FloatOps.maximumf (F := Ideal) (φ := φ)) x init h' hu j = ⨆ k : Fin (s.size a), x (h.lift j k) := by
  rw [Host.reduce_eq_fold_single _ x init h' h hu j, hinit]
  exact fold_max_bot_univ _

/-- The same for `min` from `+∞`. -/
theorem hostReduce_min_single (x : s.Idx → EReal) (init : u.Idx → EReal) (h' : s.ReducesTo [a] t) (h : s.Reduces [a] t)
    (hu : 0 < u.numel) (hinit : init (Shape.Idx.first hu) = ⊤) (j : t.Idx) :
    Host.reduce (FloatOps.minimumf (F := Ideal) (φ := φ)) x init h' hu j = ⨅ k : Fin (s.size a), x (h.lift j k) := by
  rw [Host.reduce_eq_fold_single _ x init h' h hu j, hinit]
  exact fold_min_top_univ _

/-- In the printed form: the f32 maximum over one axis from the constant `0xFF800000`. -/
theorem hostReduce_max_single_negInf (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) :=
  hostReduce_max_single (φ := .f32) x _ h' h hu ofBits_negInf_f32 j

/-- A kernel's `multi_reduction <maximumf>` over one axis whose accumulator pattern denotes `-∞` is at `j` the
    supremum over that axis's coordinates. -/
theorem multiReduction_max_single (src : FVec Ideal s φ) (acc : BitVec φ.bits) (h : s.Reduces [a] t)
    (hφ : FKind.Formats φ) (hacc : acc = FKind.maximumf.neutral φ hφ) (hbot : Ideal.ofBits φ acc = ⊥) (j : t.Idx) :
    multiReduction .maximumf [a] t src acc h hφ hacc j = ⨆ k : Fin (s.size a), src (h.lift j k) := by
  rw [Ideal.multiReduction_maximumf_single]
  show (Finset.univ : Finset (Fin (s.size a))).fold max (Ideal.ofBits φ acc) (src ∘ h.lift j) = _
  rw [hbot]
  exact fold_max_bot_univ _

/-- At f32 with the accumulator `0xFF800000`, as a kernel prints a row maximum. -/
theorem multiReduction_max_single_f32 (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) :=
  multiReduction_max_single src _ h hφ hacc ofBits_negInf_f32 j

/-- The same with the accumulator's side condition spelt as a printed program carries it (a proof that the
    pattern equals itself), so that the lemma applies to the printed term as it stands. -/
theorem multiReduction_max_single_f32_printed (src : FVec Ideal s .f32) (h : s.Reduces [a] t)
    (hφ : FKind.Formats .f32) (hacc : (0xFF800000#32 : BitVec 32) = 0xFF800000#32) (j : t.Idx) :
    multiReduction .maximumf [a] t src 0xFF800000#32 h hφ hacc j = ⨆ k : Fin (s.size a), src (h.lift j k) :=
  multiReduction_max_single_f32 src h hφ hacc j

/-- The supremum over all indices is the supremum, over the indices with one axis dropped, of the suprema along that
    axis: every index is its own image with that axis dropped, with its own coordinate put back. -/
theorem iSup_eq_iSup_iSup_lift (h : s.Reduces [a] t) (x : s.Idx → EReal) :
    ⨆ i : s.Idx, x i = ⨆ j : t.Idx, ⨆ k : Fin (s.size a), x (h.lift j k) := by
  refine le_antisymm (iSup_le fun i => ?_) (iSup_le fun j => iSup_le fun k => le_iSup x _)
  rw [← h.lift_drop i]
  exact le_iSup_of_le (h.drop i) (le_iSup (fun k => x (h.lift (h.drop i) k)) (i a))

/-- The same for infima. -/
theorem iInf_eq_iInf_iInf_lift (h : s.Reduces [a] t) (x : s.Idx → EReal) :
    ⨅ i : s.Idx, x i = ⨅ j : t.Idx, ⨅ k : Fin (s.size a), x (h.lift j k) := by
  refine le_antisymm (le_iInf fun j => le_iInf fun k => iInf_le x _) (le_iInf fun i => ?_)
  rw [← h.lift_drop i]
  exact iInf_le_of_le (h.drop i) (iInf_le (fun k => x (h.lift (h.drop i) k)) (i a))

/-- Along an axis of size one (a kept unit axis, as in a column `[…, 1]`) the inner infimum is the one value. -/
theorem iInf_eq_iInf_lift_of_size_one (h : s.Reduces [a] t) (hs : s.size a = 1) (x : s.Idx → EReal) :
    ⨅ i : s.Idx, x i = ⨅ j : t.Idx, x (h.lift j ⟨0, by omega⟩) := by
  rw [iInf_eq_iInf_iInf_lift h x]
  refine iInf_congr fun j => ?_
  haveI : Unique (Fin (s.size a)) := by rw [hs]; exact inferInstance
  rw [iInf_unique]
  exact congrArg (fun k => x (h.lift j k)) (Subsingleton.elim _ _)

theorem iSup_eq_iSup_lift_of_size_one (h : s.Reduces [a] t) (hs : s.size a = 1) (x : s.Idx → EReal) :
    ⨆ i : s.Idx, x i = ⨆ j : t.Idx, x (h.lift j ⟨0, by omega⟩) := by
  rw [iSup_eq_iSup_iSup_lift h x]
  refine iSup_congr fun j => ?_
  haveI : Unique (Fin (s.size a)) := by rw [hs]; exact inferInstance
  rw [iSup_unique]
  exact congrArg (fun k => x (h.lift j k)) (Subsingleton.elim _ _)

end OneAxis

/-! ## The index with a coordinate put back on the last axis, by coordinates -/

section LastAxis
open Idealize.ShloMosaic.ValueIdx

/-- Rank 4, last axis dropped: the index over `j` with coordinate `k` on the last axis is `(j 0, j 1, j 2, k)`. -/
theorem lift_last4 {n0 n1 n2 n3 : Nat}
    (h : (⟨4, ![n0, n1, n2, n3]⟩ : Shape).Reduces [3] (⟨3, ![n0, n1, n2]⟩ : Shape))
    (j : (⟨3, ![n0, n1, n2]⟩ : Shape).Idx) (k : Fin n3) : h.lift j k = ix4 (j 0) (j 1) (j 2) k := by
  funext c; apply Fin.ext
  match c with | ⟨0, _⟩ => rfl | ⟨1, _⟩ => rfl | ⟨2, _⟩ => rfl | ⟨3, _⟩ => rfl

/-- Rank 2, last axis dropped: the index over `j` with coordinate `k` on the last axis is `(j 0, k)`. -/
theorem lift_last2 {n0 n1 : Nat}
    (h : (⟨2, ![n0, n1]⟩ : Shape).Reduces [1] (⟨1, ![n0]⟩ : Shape))
    (j : (⟨1, ![n0]⟩ : Shape).Idx) (k : Fin n1) : h.lift j k = ix2 (j 0) k := by
  funext c; apply Fin.ext
  match c with | ⟨0, _⟩ => rfl | ⟨1, _⟩ => rfl

/-- A supremum over all rank-4 indices is the nested supremum over the four coordinates. -/
theorem iSup_ix4 {n0 n1 n2 n3 : Nat} (f : (⟨4, ![n0, n1, n2, n3]⟩ : Shape).Idx → EReal) :
    ⨆ i, f i = ⨆ a : Fin n0, ⨆ b : Fin n1, ⨆ c : Fin n2, ⨆ d : Fin n3, f (ix4 a b c d) := by
  refine le_antisymm (iSup_le fun i => ?_)
    (iSup_le fun a => iSup_le fun b => iSup_le fun c => iSup_le fun d => le_iSup f _)
  rw [eq_ix4 i]
  exact le_iSup_of_le (i 0) (le_iSup_of_le (i 1) (le_iSup_of_le (i 2)
    (le_iSup (fun d => f (ix4 (i 0) (i 1) (i 2) d)) (i 3))))

/-- An infimum over all rank-4 indices is the nested infimum over the four coordinates. -/
theorem iInf_ix4 {n0 n1 n2 n3 : Nat} (f : (⟨4, ![n0, n1, n2, n3]⟩ : Shape).Idx → EReal) :
    ⨅ i, f i = ⨅ a : Fin n0, ⨅ b : Fin n1, ⨅ c : Fin n2, ⨅ d : Fin n3, f (ix4 a b c d) := by
  refine le_antisymm
    (le_iInf fun a => le_iInf fun b => le_iInf fun c => le_iInf fun d => iInf_le f _) (le_iInf fun i => ?_)
  rw [eq_ix4 i]
  exact iInf_le_of_le (i 0) (iInf_le_of_le (i 1) (iInf_le_of_le (i 2)
    (iInf_le (fun d => f (ix4 (i 0) (i 1) (i 2) d)) (i 3))))

/-- A supremum over all rank-3 indices is the nested supremum over the three coordinates. -/
theorem iSup_ix3 {n0 n1 n2 : Nat} (f : (⟨3, ![n0, n1, n2]⟩ : Shape).Idx → EReal) :
    ⨆ i, f i = ⨆ a : Fin n0, ⨆ b : Fin n1, ⨆ c : Fin n2, f (ix3 a b c) := by
  refine le_antisymm (iSup_le fun i => ?_) (iSup_le fun a => iSup_le fun b => iSup_le fun c => le_iSup f _)
  rw [eq_ix3 i]
  exact le_iSup_of_le (i 0) (le_iSup_of_le (i 1) (le_iSup (fun c => f (ix3 (i 0) (i 1) c)) (i 2)))

/-- An infimum over all rank-3 indices is the nested infimum over the three coordinates. -/
theorem iInf_ix3 {n0 n1 n2 : Nat} (f : (⟨3, ![n0, n1, n2]⟩ : Shape).Idx → EReal) :
    ⨅ i, f i = ⨅ a : Fin n0, ⨅ b : Fin n1, ⨅ c : Fin n2, f (ix3 a b c) := by
  refine le_antisymm (le_iInf fun a => le_iInf fun b => le_iInf fun c => iInf_le f _) (le_iInf fun i => ?_)
  rw [eq_ix3 i]
  exact iInf_le_of_le (i 0) (iInf_le_of_le (i 1) (iInf_le (fun c => f (ix3 (i 0) (i 1) c)) (i 2)))

end LastAxis

end Idealize.ShloMosaic.ReduceExtremum
-- ==== Proof.BodyLayout.lean ====
/-
  Small layout facts for matrices, read at an index given by coordinates: a column [a, 1] repeated over b columns, a
  single entry [1, 1] repeated over a whole [a, b] matrix, and sums and maxima along the first or the last axis of an
  [a, b] matrix, at the extended reals (where a reduction by addition from the zero pattern is the exact sum, and a
  reduction by maximum from the pattern of minus infinity is the supremum).
-/
import Idealize.ShloMosaic.Lib.Pipeline.Value
import Idealize.ShloMosaic.Lib.ValueIdx
import Idealize.ShloMosaic.PureOps.Ideal.Laws
import proofs.«147578_j11888469475892_2_alg».proof.Proof.LibReduceExtremum

noncomputable section

namespace Cert.KernelBody

open Idealize.ShloMosaic Idealize.ShloMosaic.ValueIdx

variable {α : Type}

/-- An [a, 1] column broadcast to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array broadcast to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Rank 2, first axis dropped: the index over j with coordinate r put back on the first axis is (r, j 0). -/
theorem lift_first2 {n0 n1 : ℕ} (h : (⟨2, ![n0, n1]⟩ : Shape).Reduces [0] (⟨1, ![n1]⟩ : Shape))
    (j : (⟨1, ![n1]⟩ : Shape).Idx) (r : Fin n0) : h.lift j r = ix2 r (j 0) := by
  funext c; apply Fin.ext
  match c with | ⟨0, _⟩ => rfl | ⟨1, _⟩ => rfl

/-- A sum down the columns: reducing the first axis of an [a, b] matrix by addition gives, at c, the sum over rows. -/
theorem sum_axis0_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (c : Fin b) :
    multiReduction .add [0] ⟨1, ![b]⟩ src 0x00000000#32 h hφ hacc (ix1 c) = ∑ r : Fin a, src (ix2 r c) :=
  (Ideal.multiReduction_add_single src 0x00000000#32 h hφ hacc (ix1 c)).trans
    (Finset.sum_congr rfl fun r _ => congrArg src (lift_first2 h (ix1 c) r))

/-- A sum along the rows: reducing the last axis of an [a, b] matrix by addition gives, at r, the sum over columns. -/
theorem sum_axis1_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (ReduceExtremum.lift_last2 h (ix1 r) c))

/-- A maximum down the columns from minus infinity: at c, the supremum over rows. -/
theorem max_axis0_apply {a b : ℕ} (src : FVec Ideal ⟨2, ![a, b]⟩ .f32)
    (h : (⟨2, ![a, b]⟩ : Shape).Reduces [0] (⟨1, ![b]⟩ : Shape)) (hφ : FKind.Formats .f32)
    (hacc : (0xFF800000#32 : BitVec 32) = 0xFF800000#32) (c : Fin b) :
    multiReduction .maximumf [0] ⟨1, ![b]⟩ src 0xFF800000#32 h hφ hacc (ix1 c) = ⨆ r : Fin a, src (ix2 r c) :=
  (ReduceExtremum.multiReduction_max_single_f32_printed src h hφ hacc (ix1 c)).trans
    (iSup_congr fun r => congrArg src (lift_first2 h (ix1 c) r))

end Cert.KernelBody

end
-- ==== Proof.BodyRead.lean ====
/-
  The kernel body's arithmetic for one batch, stage by stage, read at an index.

  The body's result is a composition of four stages, each a function of whole blocks:
    scoreT  — the 64 x 4096 table of scores, cluster-major: (sum_d ct(k, d) * x(n, d)) * scale(k) + shift(k);
    softT   — a softmax down each column (over the 64 clusters of one descriptor);
    residT  — the 64 x 512 residual sums: sum_n a(k, n) * x(n, d) - (sum_n a(k, n)) * c2(k, d);
    colFloorT and the last stage — each row (one cluster) divided by max(its norm, floor), then the whole table by
              max(its norm, floor).
  Each stage is stated with the same operations the body applies, so that the body's payload IS their composition,
  and each is then read entry by entry as the specification's function of the same name (with the table transposed:
  the body is cluster-major, the specification descriptor-major).
-/
import proofs.«147578_j11888469475892_2_alg».proof.Proof.Gen.KernelIdeal.Skeleton
import proofs.«147578_j11888469475892_2_alg».proof.Proof.Spec
import proofs.«147578_j11888469475892_2_alg».proof.Proof.BodyDots
import proofs.«147578_j11888469475892_2_alg».proof.Proof.BodyLayout
import proofs.«147578_j11888469475892_2_alg».proof.Proof.LibColumnCast
import Idealize.ShloMosaic.Lib.ValueLayout

noncomputable section

namespace Cert.KernelBody

open Idealize.ShloMosaic Idealize.ShloMosaic.ValueIdx Cert.KernelIdeal Cert.KernelIdeal.Gen

/-! ## The stages, as the body applies them -/

/-- One batch's descriptors as a 4096 x 512 matrix (the leading unit axis dropped; the change of format is the identity). -/
def descr (x0 : FVec Ideal S1x4096x512 .f32) : FVec Ideal S4096x512 .bf16 :=
  truncf .bf16 (shapeCast S4096x512 x0 shapeCasts_S1x4096x512_S4096x512) bitsLt_bf16_f32

/-- The scores, cluster-major. -/
def scoreT (x0 : FVec Ideal S1x4096x512 .f32) (x1 : FVec Ideal S64x512 .f32) (x3 x4 : FVec Ideal S64x1 .f32) :
    FVec Ideal S64x4096 .f32 :=
  addf (mulf (matmul dot_S64x512_S4096x512_S64x4096_1_1_0_0_n_n none
        (truncf .bf16 (shapeCast S64x512 x1 shapeCasts_S64x512_S64x512) bitsLt_bf16_f32) (descr x0)
        (constant (F := Ideal) S64x4096 .f32 0x00000000#32))
      (broadcastTo S64x4096 (shapeCast S64x1 x3 shapeCasts_S64x1_S64x1) broadcasts_S64x1_S64x4096))
    (broadcastTo S64x4096 (shapeCast S64x1 x4 shapeCasts_S64x1_S64x1) broadcasts_S64x1_S64x4096)

/-- Each column's maximum, repeated down the column. -/
def peakRow (L : FVec Ideal S64x4096 .f32) : FVec Ideal S64x4096 .f32 :=
  broadcastTo S64x4096 (shapeCast S1x4096 (multiReduction (F := Ideal) .maximumf [0] S4096 L 0xFF800000#32 reduces_S64x4096_S4096 (.inl rfl) rfl)
    shapeCasts_S4096_S1x4096) broadcasts_S1x4096_S64x4096
def exT (L : FVec Ideal S64x4096 .f32) : FVec Ideal S64x4096 .f32 := exp (subf L (peakRow L))
/-- Each column's sum, repeated down the column. -/
def massRow (E : FVec Ideal S64x4096 .f32) : FVec Ideal S64x4096 .f32 :=
  broadcastTo S64x4096 (shapeCast S1x4096 (multiReduction (F := Ideal) .add [0] S4096 E 0x00000000#32 reduces_S64x4096_S4096 (.inl rfl) rfl)
    shapeCasts_S4096_S1x4096) broadcasts_S1x4096_S64x4096
/-- The softmax down each column. -/
def softT (L : FVec Ideal S64x4096 .f32) : FVec Ideal S64x4096 .f32 := divf (exT L) (massRow (exT L))

/-- The residual sums, cluster-major. -/
def residT (A : FVec Ideal S64x4096 .f32) (x0 : FVec Ideal S1x4096x512 .f32) (x2 : FVec Ideal S1x64x512 .f32) :
    FVec Ideal S64x512 .f32 :=
  subf (matmul dot_S64x4096_S4096x512_S64x512_1_0_0_1_n_n none (truncf .bf16 A bitsLt_bf16_f32) (descr x0)
      (constant (F := Ideal) S64x512 .f32 0x00000000#32))
    (mulf (broadcastTo S64x512 (shapeCast S64x1 (multiReduction (F := Ideal) .add [1] S64 A 0x00000000#32 reduces_S64x4096_S64 (.inl rfl) rfl)
        shapeCasts_S64_S64x1) broadcasts_S64x1_S64x512)
      (shapeCast S64x512 x2 shapeCasts_S1x64x512_S64x512))

/-- Each row's floored norm, repeated along the row. -/
def colFloorT (R : FVec Ideal S64x512 .f32) : FVec Ideal S64x512 .f32 :=
  broadcastTo S64x512 (maximumf (sqrt (shapeCast S64x1 (multiReduction (F := Ideal) .add [1] S64 (mulf R R) 0x00000000#32 reduces_S64x512_S64 (.inl rfl) rfl)
      shapeCasts_S64_S64x1)) (broadcast S64x1 (Scalar.ofBits (F := Ideal) .f32 0x2B8CBCCC#32))) broadcasts_S64x1_S64x512

/-- The body's first payload is the residual sums of the softmax of the scores. -/
theorem pay2_eq (x0 : FVec Ideal S1x4096x512 .f32) (x1 : FVec Ideal S64x512 .f32) (x3 x4 : FVec Ideal S64x1 .f32)
    (x2 : FVec Ideal S1x64x512 .f32) :
    k0_pay2 (F := Ideal) x0 x1 x3 x4 x2 = residT (softT (scoreT x0 x1 x3 x4)) x0 x2 := rfl

/-- The body's second payload is the rows' floored norms of the first. -/
theorem pay3_eq (x0 : FVec Ideal S1x4096x512 .f32) (x1 : FVec Ideal S64x512 .f32) (x3 x4 : FVec Ideal S64x1 .f32)
    (x2 : FVec Ideal S1x64x512 .f32) :
    k0_pay3 (F := Ideal) x0 x1 x3 x4 x2 = colFloorT (k0_pay2 (F := Ideal) x0 x1 x3 x4 x2) := rfl

/-! ## Each stage at an index -/

theorem descr_apply (x0 : FVec Ideal S1x4096x512 .f32) (n : Fin 4096) (d : Fin 512) :
    descr x0 (ix2 n d) = x0 (ix3 (0 : Fin 1) n d) :=
  shapeCast_1ab_ab_apply x0 shapeCasts_S1x4096x512_S4096x512 n d

theorem scoreT_apply (x0 : FVec Ideal S1x4096x512 .f32) (x1 : FVec Ideal S64x512 .f32) (x3 x4 : FVec Ideal S64x1 .f32)
    (k : Fin 64) (n : Fin 4096) :
    scoreT x0 x1 x3 x4 (ix2 k n)
      = (∑ d : Fin 512, x1 (ix2 k d) * x0 (ix3 (0 : Fin 1) n d)) * x3 (ix2 k (0 : Fin 1)) + x4 (ix2 k (0 : Fin 1)) := by
  show matmul dot_S64x512_S4096x512_S64x4096_1_1_0_0_n_n none (truncf .bf16 (shapeCast S64x512 x1 shapeCasts_S64x512_S64x512) bitsLt_bf16_f32) (descr x0)
        (constant (F := Ideal) S64x4096 .f32 0x00000000#32) (ix2 k n)
      * broadcastTo S64x4096 (shapeCast S64x1 x3 shapeCasts_S64x1_S64x1) broadcasts_S64x1_S64x4096 (ix2 k n)
      + broadcastTo S64x4096 (shapeCast S64x1 x4 shapeCasts_S64x1_S64x1) broadcasts_S64x1_S64x4096 (ix2 k n) = _
  rw [scoreDot_apply, broadcastTo_a1_ab_apply, broadcastTo_a1_ab_apply, shapeCast_self, shapeCast_self, shapeCast_self]
  refine congrArg (fun s => s * x3 (ix2 k (0 : Fin 1)) + x4 (ix2 k (0 : Fin 1))) (Finset.sum_congr rfl fun d _ => ?_)
  show x1 (ix2 k d) * descr x0 (ix2 n d) = _
  rw [descr_apply]

theorem peakRow_apply (L : FVec Ideal S64x4096 .f32) (k : Fin 64) (n : Fin 4096) :
    peakRow L (ix2 k n) = Cert.Vlad.peak (fun n k => L (ix2 k n)) n := by
  unfold peakRow
  rw [broadcastTo_1b_ab_apply, shapeCast_a_1a_apply]
  exact max_axis0_apply L reduces_S64x4096_S4096 _ _ n

theorem exT_apply (L : FVec Ideal S64x4096 .f32) (k : Fin 64) (n : Fin 4096) :
    exT L (ix2 k n) = Cert.Vlad.ex (fun n k => L (ix2 k n)) n k := by
  show Ideal.exp (L (ix2 k n) - peakRow L (ix2 k n)) = _
  rw [peakRow_apply]; rfl

theorem massRow_apply (E : FVec Ideal S64x4096 .f32) (k : Fin 64) (n : Fin 4096) :
    massRow E (ix2 k n) = ∑ k' : Fin 64, E (ix2 k' n) := by
  unfold massRow
  rw [broadcastTo_1b_ab_apply, shapeCast_a_1a_apply]
  exact sum_axis0_apply E reduces_S64x4096_S4096 _ _ n

theorem softT_apply (L : FVec Ideal S64x4096 .f32) (k : Fin 64) (n : Fin 4096) :
    softT L (ix2 k n) = Cert.Vlad.asg (fun n k => L (ix2 k n)) n k := by
  show Ideal.div (exT L (ix2 k n)) (massRow (exT L) (ix2 k n)) = _
  rw [massRow_apply, exT_apply]
  unfold Cert.Vlad.asg Cert.Vlad.mass
  exact congrArg (Ideal.div _) (Finset.sum_congr rfl fun k' _ => exT_apply L k' n)

theorem residT_apply (A : FVec Ideal S64x4096 .f32) (x0 : FVec Ideal S1x4096x512 .f32) (x2 : FVec Ideal S1x64x512 .f32)
    (k : Fin 64) (d : Fin 512) :
    residT A x0 x2 (ix2 k d)
      = (∑ n : Fin 4096, A (ix2 k n) * x0 (ix3 (0 : Fin 1) n d)) - (∑ n : Fin 4096, A (ix2 k n)) * x2 (ix3 (0 : Fin 1) k d) := by
  show matmul dot_S64x4096_S4096x512_S64x512_1_0_0_1_n_n none (truncf .bf16 A bitsLt_bf16_f32) (descr x0) (constant (F := Ideal) S64x512 .f32 0x00000000#32) (ix2 k d)
      - broadcastTo S64x512 (shapeCast S64x1 (multiReduction (F := Ideal) .add [1] S64 A 0x00000000#32 reduces_S64x4096_S64 (.inl rfl) rfl)
          shapeCasts_S64_S64x1) broadcasts_S64x1_S64x512 (ix2 k d)
        * shapeCast S64x512 x2 shapeCasts_S1x64x512_S64x512 (ix2 k d) = _
  rw [sumDot_apply, broadcastTo_a1_ab_apply, Cert.ColumnCast.shapeCast_a_a1_apply, shapeCast_1ab_ab_apply,
    sum_axis1_apply A reduces_S64x4096_S64 _ _ k]
  refine congrArg (fun s => s - (∑ n : Fin 4096, A (ix2 k n)) * x2 (ix3 (0 : Fin 1) k d)) (Finset.sum_congr rfl fun n _ => ?_)
  show A (ix2 k n) * descr x0 (ix2 n d) = _
  rw [descr_apply]

theorem colFloorT_apply (R : FVec Ideal S64x512 .f32) (k : Fin 64) (d : Fin 512) :
    colFloorT R (ix2 k d) = Cert.Vlad.colNorm (fun d k => R (ix2 k d)) k := by
  unfold colFloorT
  rw [broadcastTo_a1_ab_apply]
  show max (Ideal.sqrt (shapeCast S64x1 (multiReduction (F := Ideal) .add [1] S64 (mulf R R) 0x00000000#32 reduces_S64x512_S64 (.inl rfl) rfl)
      shapeCasts_S64_S64x1 (ix2 k (0 : Fin 1)))) (Ideal.ofBits .f32 0x2B8CBCCC#32) = _
  rw [Cert.ColumnCast.shapeCast_a_a1_apply, sum_axis1_apply (mulf R R) reduces_S64x512_S64 _ _ k]
  rfl

/-- The last stage: with R the residual sums and V their rows' floored norms, the stored block at (0, k, d) is the
    whole-table normalisation of the row-normalised table, at (d, k). -/
theorem pay1_apply (R V : FVec Ideal S64x512 .f32) (k : Fin 64) (d : Fin 512) :
    k0_pay1 (F := Ideal) R V (ix3 (0 : Fin 1) k d)
      = Cert.Vlad.allUnit (fun d k => Ideal.div (R (ix2 k d)) (V (ix2 k d))) d k := by
  unfold k0_pay1
  rw [shapeCast_ab_1ab_apply]
  show Ideal.div (Ideal.div (R (ix2 k d)) (V (ix2 k d)))
      (broadcastTo S64x512 (maximumf (sqrt (shapeCast S1x1 (multiReduction (F := Ideal) .add [0] S1
        (shapeCast S64x1 (multiReduction (F := Ideal) .add [1] S64 (mulf (divf R V) (divf R V)) 0x00000000#32 reduces_S64x512_S64 (.inl rfl) rfl) shapeCasts_S64_S64x1)
        0x00000000#32 reduces_S64x1_S1 (.inl rfl) rfl) shapeCasts_S1_S1x1)) (broadcast S1x1 (Scalar.ofBits (F := Ideal) .f32 0x2B8CBCCC#32)))
        broadcasts_S1x1_S64x512 (ix2 k d)) = _
  rw [broadcastTo_11_ab_apply]
  show Ideal.div _ (max (Ideal.sqrt (shapeCast S1x1 (multiReduction (F := Ideal) .add [0] S1
        (shapeCast S64x1 (multiReduction (F := Ideal) .add [1] S64 (mulf (divf R V) (divf R V)) 0x00000000#32 reduces_S64x512_S64 (.inl rfl) rfl) shapeCasts_S64_S64x1)
        0x00000000#32 reduces_S64x1_S1 (.inl rfl) rfl) shapeCasts_S1_S1x1 (ix2 (0 : Fin 1) (0 : Fin 1)))) (Ideal.ofBits .f32 0x2B8CBCCC#32)) = _
  rw [shapeCast_a_1a_apply, sum_axis0_apply _ reduces_S64x1_S1 _ _ (0 : Fin 1)]
  unfold Cert.Vlad.allUnit Cert.Vlad.allNorm
  refine congrArg (fun s => Ideal.div (Ideal.div (R (ix2 k d)) (V (ix2 k d))) (max (Ideal.sqrt s) (Ideal.ofBits .f32 0x2B8CBCCC#32)))
    (Finset.sum_congr rfl fun k' _ => ?_)
  rw [Cert.ColumnCast.shapeCast_a_a1_apply, sum_axis1_apply _ reduces_S64x512_S64 _ _ k']
  rfl

/-! ## The body's stored block -/

/-- The block the body stores for one batch, at (0, k, d), is the specification's table at (d, k): from the scores
    scoreT (read descriptor-major), the batch's descriptors and the second cluster table. -/
theorem body_read (x0 : FVec Ideal S1x4096x512 .f32) (x1 : FVec Ideal S64x512 .f32) (x3 x4 : FVec Ideal S64x1 .f32)
    (x2 : FVec Ideal S1x64x512 .f32) (k : Fin 64) (d : Fin 512) :
    k0_pay1 (F := Ideal) (k0_pay2 (F := Ideal) x0 x1 x3 x4 x2) (k0_pay3 (F := Ideal) x0 x1 x3 x4 x2) (ix3 (0 : Fin 1) k d)
      = Cert.Vlad.vlad (fun n k => scoreT x0 x1 x3 x4 (ix2 k n)) (fun n d => x0 (ix3 (0 : Fin 1) n d))
          (fun d k => x2 (ix3 (0 : Fin 1) k d)) d k := by
  rw [pay1_apply]
  unfold Cert.Vlad.vlad
  have hres : (fun (d : Fin 512) (k : Fin 64) => k0_pay2 (F := Ideal) x0 x1 x3 x4 x2 (ix2 k d))
      = Cert.Vlad.resid (fun n k => scoreT x0 x1 x3 x4 (ix2 k n)) (fun n d => x0 (ix3 (0 : Fin 1) n d))
          (fun d k => x2 (ix3 (0 : Fin 1) k d)) := by
    funext d k
    rw [pay2_eq, residT_apply]
    unfold Cert.Vlad.resid Cert.Vlad.asum
    simp only [softT_apply]
  refine congrArg (fun T => Cert.Vlad.allUnit T d k) ?_
  funext d' k'
  rw [pay3_eq, colFloorT_apply]
  unfold Cert.Vlad.colUnit
  rw [hres]
  exact congrArg (fun v => Ideal.div v _) (congrFun (congrFun hres d') k')

end Cert.KernelBody

end
-- ==== Proof.RegionValue.lean ====
/-
  From the blocks the body stores to the whole array the region leaves, and from there through the two host
  operations after the region to the program's result.

  The grid has one point per batch. At point t the body reads batch t of the descriptors and the four parameter
  arrays whole, and stores a 1 x 64 x 512 block that is written back as rows (t, ., .) of the 32 x 64 x 512 output
  array. By the reading of the body, that block is the specification's table of batch t, cluster-major. The 32
  blocks cover the array, so the array is the specification's table at every index. After the region the program
  swaps the last two axes and flattens them: the result at (b, j) is the table of batch b at (d, k) = (j / 64, j % 64).
-/
import proofs.«147578_j11888469475892_2_alg».proof.Proof.Found
import proofs.«147578_j11888469475892_2_alg».proof.Proof.BodyRead
import Idealize.ShloMosaic.Lib.Pipeline.Value

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The specification's table of batch b, from the argument arrays of core c, with the scores in the folded spelling. -/
def tableOf (c : Dev nD) (b : Fin 32) (d : Fin 512) (k : Fin 64) : EReal :=
  Cert.Vlad.vlad
    (Cert.Vlad.scoresFolded (fun n d => a0 m c (ix3 b n d)) (fun d k => a1 m c (ix2 d k)) (fun k => a3 m c (ix1 k))
      (fun k => a4 m c (ix1 k)) (fun k => a5 m c (ix1 k)) (fun k => a6 m c (ix1 k)))
    (fun n d => a0 m c (ix3 b n d)) (fun d k => a2 m c (ix3 (0 : Fin 1) d k)) d k

/-- The array the region leaves: batch, cluster, dimension. -/
def regionOut (c : Dev nD) : S32x64x512.Idx → EReal := fun i => tableOf m c (i 0) (i 2) (i 1)

/-- A grid point is a batch number. -/
def batchOf (t : Fin cfg0.N) : Fin 32 := ⟨t.val, lt_of_lt_of_eq t.isLt N_0⟩

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the descriptors' and the output's block index is the point on the
    batch axis and zero elsewhere; the four parameter windows always take block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The input blocks at a point, read back to the argument arrays -/

theorem iblk0_apply (c : Dev nD) (t : Fin cfg0.N) (n : Fin 4096) (d : Fin 512) :
    iblk m c 0 t (ix3 (0 : Fin 1) n d) = a0 m c (ix3 (batchOf t) n d) := by
  obtain ⟨e0, e1, e2, -⟩ := idx_facts t
  unfold iblk
  rw [View.read_apply]
  show V m c main_arg0 _ = _
  rw [V_main_arg0]
  refine congrArg (a0 m c) (funext fun a => Fin.ext ?_)
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 512 + 1 * d.val = d.val; omega

theorem iblk1_apply (c : Dev nD) (t : Fin cfg0.N) (k : Fin 64) (d : Fin 512) :
    iblk m c 1 t (ix2 k d) = a1 m c (ix2 d k) := by
  obtain ⟨-, -, -, e0, e1, -⟩ := idx_facts t
  unfold iblk
  rw [View.read_apply]
  show V m c main_v9 _ = _
  refine Eq.trans (congrArg (V m c main_v9) (funext fun a => Fin.ext ?_)) (found_ct_apply m c k d)
  match a with
  | ⟨0, _⟩ => show win0_1.index t (0 : Fin 2) * 64 + 1 * k.val = k.val; omega
  | ⟨1, _⟩ => show win0_1.index t (1 : Fin 2) * 512 + 1 * d.val = d.val; omega

theorem iblk2_apply (c : Dev nD) (t : Fin cfg0.N) (k : Fin 64) (d : Fin 512) :
    iblk m c 2 t (ix3 (0 : Fin 1) k d) = a2 m c (ix3 (0 : Fin 1) d k) := by
  obtain ⟨-, -, -, -, -, e0, e1, e2, -⟩ := idx_facts t
  unfold iblk
  rw [View.read_apply]
  show V m c main_v10 _ = _
  refine Eq.trans (congrArg (V m c main_v10) (funext fun a => Fin.ext ?_)) (found_c2t_apply m c k d)
  match a with
  | ⟨0, _⟩ => show win0_2.index t (0 : Fin 3) * 1 + 1 * 0 = 0; omega
  | ⟨1, _⟩ => show win0_2.index t (1 : Fin 3) * 64 + 1 * k.val = k.val; omega
  | ⟨2, _⟩ => show win0_2.index t (2 : Fin 3) * 512 + 1 * d.val = d.val; omega

theorem iblk3_apply (c : Dev nD) (t : Fin cfg0.N) (k : Fin 64) :
    iblk m c 3 t (ix2 k (0 : Fin 1)) = a3 m c (ix1 k) * Cert.Vlad.invStd (a6 m c (ix1 k)) := by
  obtain ⟨-, -, -, -, -, -, -, -, e0, e1, -⟩ := idx_facts t
  unfold iblk
  rw [View.read_apply]
  show V m c main_v4 _ = _
  refine Eq.trans (congrArg (V m c main_v4) (funext fun a => Fin.ext ?_)) (found_scale_apply m c k)
  match a with
  | ⟨0, _⟩ => show win0_3.index t (0 : Fin 2) * 64 + 1 * k.val = k.val; omega
  | ⟨1, _⟩ => show win0_3.index t (1 : Fin 2) * 1 + 1 * 0 = 0; omega

theorem iblk4_apply (c : Dev nD) (t : Fin cfg0.N) (k : Fin 64) :
    iblk m c 4 t (ix2 k (0 : Fin 1))
      = a4 m c (ix1 k) - a5 m c (ix1 k) * a3 m c (ix1 k) * Cert.Vlad.invStd (a6 m c (ix1 k)) := by
  obtain ⟨-, -, -, -, -, -, -, -, -, -, e0, e1, -⟩ := idx_facts t
  unfold iblk
  rw [View.read_apply]
  show V m c main_v8 _ = _
  refine Eq.trans (congrArg (V m c main_v8) (funext fun a => Fin.ext ?_)) (found_shift_apply m c k)
  match a with
  | ⟨0, _⟩ => show win0_4.index t (0 : Fin 2) * 64 + 1 * k.val = k.val; omega
  | ⟨1, _⟩ => show win0_4.index t (1 : Fin 2) * 1 + 1 * 0 = 0; omega

/-! ## What a point writes back -/

/-- The array index of entry (0, k, d) of the output block at point t is (t, k, d). -/
theorem out_emb (t : Fin cfg0.N) (k : Fin 64) (d : Fin 512) :
    ((cfg0.win 5).blk t).view.emb (ix3 (0 : Fin 1) k d) = ix3 (batchOf t) k d := by
  obtain ⟨-, -, -, -, -, -, -, -, -, -, -, -, e0, e1, e2⟩ := idx_facts t
  funext a; apply Fin.ext
  match a with
  | ⟨0, _⟩ => show win0_5.index t (0 : Fin 3) * 1 + 1 * 0 = t.val; omega
  | ⟨1, _⟩ => show win0_5.index t (1 : Fin 3) * 64 + 1 * k.val = k.val; omega
  | ⟨2, _⟩ => show win0_5.index t (2 : Fin 3) * 512 + 1 * d.val = d.val; omega

/-- What point t writes back is block t of the specification's array. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero hz3]
  simp only [View.ld_unit_zero (S := S1x4096x512) hz3, View.ld_unit_zero (S := S64x512) hz2,
    View.ld_unit_zero (S := S64x1) hz2, View.ld_unit_zero (S := S1x64x512) hz3]
  funext j
  obtain ⟨u, k, d, rfl⟩ : ∃ (u : Fin 1) (k : Fin 64) (d : Fin 512), j = ix3 u k d := ⟨j 0, j 1, j 2, eq_ix3 j⟩
  obtain rfl : u = 0 := Subsingleton.elim _ _
  show k0_pay1 (F := Ideal) (k0_pay2 (F := Ideal) (iblk m c 0 t) (iblk m c 1 t) (iblk m c 3 t) (iblk m c 4 t) (iblk m c 2 t))
      (k0_pay3 (F := Ideal) (iblk m c 0 t) (iblk m c 1 t) (iblk m c 3 t) (iblk m c 4 t) (iblk m c 2 t)) (ix3 (0 : Fin 1) k d)
    = regionOut m c (((cfg0.win 5).blk t).view.emb (ix3 (0 : Fin 1) k d))
  refine (Cert.KernelBody.body_read (iblk m c 0 t) (iblk m c 1 t) (iblk m c 3 t) (iblk m c 4 t) (iblk m c 2 t) k d).trans ?_
  rw [out_emb]
  show _ = tableOf m c (batchOf t) d k
  unfold tableOf
  have hS : (fun (n : Fin 4096) (k : Fin 64) => Cert.KernelBody.scoreT (iblk m c 0 t) (iblk m c 1 t) (iblk m c 3 t) (iblk m c 4 t) (ix2 k n))
      = Cert.Vlad.scoresFolded (fun n d => a0 m c (ix3 (batchOf t) n d)) (fun d k => a1 m c (ix2 d k)) (fun k => a3 m c (ix1 k))
          (fun k => a4 m c (ix1 k)) (fun k => a5 m c (ix1 k)) (fun k => a6 m c (ix1 k)) := by
    funext n k
    rw [Cert.KernelBody.scoreT_apply, iblk3_apply, iblk4_apply]
    unfold Cert.Vlad.scoresFolded Cert.Vlad.foldedAffine
    refine congrArg (fun s => s * (a3 m c (ix1 k) * Cert.Vlad.invStd (a6 m c (ix1 k)))
      + (a4 m c (ix1 k) - a5 m c (ix1 k) * a3 m c (ix1 k) * Cert.Vlad.invStd (a6 m c (ix1 k)))) (Finset.sum_congr rfl fun d _ => ?_)
    rw [iblk1_apply, iblk0_apply]
  have hX : (fun (n : Fin 4096) (d : Fin 512) => iblk m c 0 t (ix3 (0 : Fin 1) n d)) = fun n d => a0 m c (ix3 (batchOf t) n d) := by
    funext n d; exact iblk0_apply m c t n d
  have hC : (fun (d : Fin 512) (k : Fin 64) => iblk m c 2 t (ix3 (0 : Fin 1) k d)) = fun d k => a2 m c (ix3 (0 : Fin 1) d k) := by
    funext d k; exact iblk2_apply m c t k d
  rw [hS, hX, hC]

/-! ## The cover, and the array after the region -/

/-- Every index of the output array lies in the block of the point that is its batch. -/
theorem covered (c : Dev nD) (i : S32x64x512.Idx) :
    ∃ t : Fin cfg0.N, (cfg0.win 5).flush t = true ∧ i ∈ ((cfg0.win 5).blk t).view.set := by
  have hi0 : (i 0).val < 32 := (i 0).isLt
  have hi1 : (i 1).val < 64 := (i 1).isLt
  have hi2 : (i 2).val < 512 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, -, -, -, -, e0, e1, e2⟩ := idx_facts t
  refine ⟨t, flush0_5 t, ?_⟩
  show i ∈ ((View.whole main_v11).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 512 ≤ (i 2).val ∧ (i 2).val < win0_5.index t (2 : Fin 3) * 512 + 512; omega

/-- The output array after the region is the specification's array. -/
theorem final (c : Dev nD) : (dats m 0 c).arrAt 5 cfg0.N = regionOut m c :=
  (dats m 0 c).arrAt_eq_of_cover 5 (regionOut m c) (fun t _ => flushed_eq m c t) (covered c)

end Cert.KernelIdeal.Hand

end
-- ==== Proof.KernelRun.lean ====
/-
  The program's result after the region: the region's output array with its last two axes swapped and then
  flattened. At (b, j) that is the specification's table of batch b at (d, k) = (j / 64, j % 64); and the run of the
  whole program ends with the result array holding exactly this, the seven argument arrays unchanged.
-/
import proofs.«147578_j11888469475892_2_alg».proof.Proof.RegionValue

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The program's result on core c. -/
def result (c : Dev nD) : S32x32768.Idx → EReal := fun i => Cert.Vlad.flat (tableOf m c) (i 0) (i 1)

/-- Swapping the last two axes of the region's array and flattening them, read at (b, j). -/
theorem swapped_flat_apply (c : Dev nD) (b : Fin 32) (j : Fin 32768) :
    shapeCast S32x32768 (transpose S32x512x64 [0, 2, 1] (regionOut m c) transposes_S32x64x512_S32x512x64_0_2_1)
        shapeCasts_S32x512x64_S32x32768 (ix2 b j)
      = Cert.Vlad.flat (tableOf m c) b j := by
  have hd : j.val / 64 < 512 := by have := j.isLt; omega
  have hk : j.val % 64 < 64 := Nat.mod_lt _ (by norm_num)
  rw [shapeCast_apply _ shapeCasts_S32x512x64_S32x32768 (ix2 b j) (ix3 b (⟨j.val / 64, hd⟩ : Fin 512) (⟨j.val % 64, hk⟩ : Fin 64)) (by
    rw [Shape.rowMajor_val_three, Shape.rowMajor_val_two]
    show (b.val * 512 + j.val / 64) * 64 + j.val % 64 = b.val * 32768 + j.val
    omega)]
  rw [transpose_ix3_021_apply]
  rfl

/-- What the two host operations after the region leave in the result buffer. -/
theorem tail_eq (c : Dev nD) :
    Pipeline.afterTail₀ cfgs (dats m) 0 (V0 m) [hostOps1] c main_v13 = result m c := by
  have hw : Pipeline.withArrays spec0 c (V0 m c) (fun w => (dats m 0 c).arrAt w cfg0.N) (Proc.devRef .tc main_v11)
      = regionOut m c :=
    (Pipeline.withArrays_arr spec0 launch0.win.arr_inj c _ _ 5).trans (final m c)
  unfold Pipeline.afterTail₀
  show StableHlo.after hostOps1 _ (Proc.devRef .tc main_v13) = _
  after_results
  funext i
  obtain ⟨b, j, rfl⟩ : ∃ (b : Fin 32) (j : Fin 32768), i = ix2 b j := ⟨i 0, i 1, eq_ix2 i⟩
  show shapeCast S32x32768 (transpose S32x512x64 [0, 2, 1]
      (Pipeline.withArrays spec0 c (V0 m c) (fun w => (dats m 0 c).arrAt w cfg0.N) (Proc.devRef .tc main_v11))
      transposes_S32x64x512_S32x512x64_0_2_1) shapeCasts_S32x512x64_S32x32768 (ix2 b j) = _
  rw [hw]
  exact swapped_flat_apply m c b j

/-- The run of the whole program: every weakly fair execution ends with the result array at the specification's
    function of the argument arrays, and the argument arrays as they were. -/
theorem run : θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.RefRead.lean ====
/-
  The reference program's result, read index by index as the specification's function.

  The reference stacks the 32 batches into one table of 32 * 4096 rows, row b * 4096 + n being descriptor n of
  batch b. Along that table it forms the scores (the projection sum_d x(n, d) * c(d, k), centred, scaled, weighted
  and shifted per cluster), each row's maximum folded from -inf (a supremum over the row), the exponentials of
  the differences, their row sums and the quotients: the soft assignment. Laid out again by batch, the
  assignments are summed over the descriptors and contracted with the descriptors; the difference of the
  contraction and asum(k) * c2(d, k) is the residual table. Each column of it is divided by the larger of its
  Euclidean norm and the floor; the table is then flattened to 512 * 64 entries, entry j being (j / 64, j % 64),
  and divided by the larger of its own Euclidean norm and the floor, where the sum of squares over the flattened
  row is the double sum over clusters and dimensions. Every step below reads one of these stages at explicit
  coordinates; the last one is the whole result.
-/
import proofs.«147578_j11888469475892_2_alg».proof.Proof.Spec
import proofs.«147578_j11888469475892_2_alg».proof.Proof.Gen.ReferenceIdeal.Read
import proofs.«147578_j11888469475892_2_alg».proof.Proof.LibReduceExtremum

noncomputable section

namespace Cert.RefRead

open Idealize.ShloMosaic Idealize.ShloMosaic.ValueIdx Cert.ReferenceIdeal Cert.ReferenceIdeal.Read

variable (x0 : FVec Ideal S32x4096x512 .f32) (x1 : FVec Ideal S512x64 .f32) (x2 : FVec Ideal S1x512x64 .f32)
  (x3 x4 x5 x6 : FVec Ideal S64 .f32)

/-- Row b * 4096 + n of the table with the batches stacked. -/
abbrev row (b : Fin 32) (n : Fin 4096) : Fin 131072 :=
  ⟨b.val * 4096 + n.val, by have := b.isLt; have := n.isLt; omega⟩

/-- Batch b's descriptors x(n, d). -/
abbrev X (b : Fin 32) : Fin 4096 → Fin 512 → EReal := fun n d => x0 (ix3 b n d)
/-- The first cluster table c(d, k). -/
abbrev C : Fin 512 → Fin 64 → EReal := fun d k => x1 (ix2 d k)
/-- The second cluster table c2(d, k). -/
abbrev C2 : Fin 512 → Fin 64 → EReal := fun d k => x2 (ix3 (0 : Fin 1) d k)
/-- Batch b's scores s(n, k): the projection through the affine map per cluster. -/
abbrev Sc (b : Fin 32) : Fin 4096 → Fin 64 → EReal :=
  Cert.Vlad.scores (X x0 b) (C x1) (fun k => x3 (ix1 k)) (fun k => x4 (ix1 k)) (fun k => x5 (ix1 k)) (fun k => x6 (ix1 k))

/-! ## The scores -/

/-- Entry (b * 4096 + n, d) of the stacked descriptors is x(b, n, d). -/
theorem v0_read (b : Fin 32) (n : Fin 4096) (d : Fin 512) :
    val_main_v0 (F := Ideal) x0 (ix2 (row b n) d) = x0 (ix3 b n d) := by
  rw [val_main_v0_apply]
  refine congrArg x0 (funext fun a => Fin.ext ?_)
  have hb := b.isLt; have hn := n.isLt; have hd := d.isLt
  match a with
  | ⟨0, _⟩ => show ((b.val * 4096 + n.val) * 512 + d.val) / 2097152 = b.val; omega
  | ⟨1, _⟩ => show ((b.val * 4096 + n.val) * 512 + d.val) / 512 % 4096 = n.val; omega
  | ⟨2, _⟩ => show ((b.val * 4096 + n.val) * 512 + d.val) % 512 = d.val; omega

/-- The projection: sum over d of x(b, n, d) * c(d, k). -/
theorem v1_read (b : Fin 32) (n : Fin 4096) (k : Fin 64) :
    val_main_v1 (F := Ideal) x0 x1 (ix2 (row b n) k) = ∑ d : Fin 512, x0 (ix3 b n d) * x1 (ix2 d k) := by
  rw [val_main_v1_apply]
  refine Finset.sum_congr rfl fun d _ => ?_
  have e1 : lidx_main_v1 (ix2 (row b n) k) d = ix2 (row b n) d :=
    funext fun a => Fin.ext (by match a with | ⟨0, _⟩ => rfl | ⟨1, _⟩ => rfl)
  have e2 : ridx_main_v1 (ix2 (row b n) k) d = ix2 d k :=
    funext fun a => Fin.ext (by match a with | ⟨0, _⟩ => rfl | ⟨1, _⟩ => rfl)
  rw [e1, e2, v0_read]

/-- The running mean along a row: entry (r, k) is mu(k). -/
theorem v6_read (r : Fin 131072) (k : Fin 64) : val_main_v6 (F := Ideal) x5 (ix2 r k) = x5 (ix1 k) := by
  rw [val_main_v6_apply, val_main_v5_apply]
  exact congrArg x5 (funext fun a => Fin.ext (by match a with | ⟨0, _⟩ => rfl))

/-- The scale along a row: entry (r, k) is 1 / sqrt(var(k) + eps). -/
theorem v9_read (r : Fin 131072) (k : Fin 64) :
    val_main_v9 (F := Ideal) x6 (ix2 r k) = Cert.Vlad.invStd (x6 (ix1 k)) := by
  rw [val_main_v9_apply, val_main_v8_apply, val_main_v4_apply, val_main_v3_apply, val_main_v2_apply, val_main_cst_apply]
  have e : idx_main_v8 (idx_main_v9 (ix2 r k)) = ix1 k :=
    funext fun a => Fin.ext (by match a with | ⟨0, _⟩ => rfl)
  rw [e]
  rfl

/-- The weight along a row: entry (r, k) is w(k). -/
theorem v12_read (r : Fin 131072) (k : Fin 64) : val_main_v12 (F := Ideal) x3 (ix2 r k) = x3 (ix1 k) := by
  rw [val_main_v12_apply, val_main_v11_apply]
  exact congrArg x3 (funext fun a => Fin.ext (by match a with | ⟨0, _⟩ => rfl))

/-- The shift along a row: entry (r, k) is b(k). -/
theorem v15_read (r : Fin 131072) (k : Fin 64) : val_main_v15 (F := Ideal) x4 (ix2 r k) = x4 (ix1 k) := by
  rw [val_main_v15_apply, val_main_v14_apply]
  exact congrArg x4 (funext fun a => Fin.ext (by match a with | ⟨0, _⟩ => rfl))

/-- Entry (b * 4096 + n, k) of the affine image of the projection is batch b's score s(n, k). -/
theorem v16_read (b : Fin 32) (n : Fin 4096) (k : Fin 64) :
    val_main_v16 (F := Ideal) x0 x1 x3 x4 x5 x6 (ix2 (row b n) k) = Sc x0 x1 x3 x4 x5 x6 b n k := by
  rw [val_main_v16_apply, val_main_v13_apply, val_main_v10_apply, val_main_v7_apply, v1_read, v6_read, v9_read,
    v12_read, v15_read]
  rfl

/-! ## The row maximum -/

/-- The maximum over a row, folded from -inf, is the supremum over the row's 64 entries. -/
theorem v17_read (b : Fin 32) (n : Fin 4096) :
    val_main_v17 (F := Ideal) x0 x1 x3 x4 x5 x6 (ix1 (row b n))
      = ⨆ k : Fin 64, val_main_v16 (F := Ideal) x0 x1 x3 x4 x5 x6 (ix2 (row b n) k) := by
  have h : S131072x64.Reduces [1] S131072 := by decide
  unfold val_main_v17 val_main_cst_0
  rw [ReduceExtremum.hostReduce_max_single_negInf _ _ h _]
  exact iSup_congr fun k => congrArg _ (ReduceExtremum.lift_last2 h _ k)

/-- The larger of -inf and the row's supremum is the peak of the row. -/
theorem v19_read (b : Fin 32) (n : Fin 4096) :
    val_main_v19 (F := Ideal) x0 x1 x3 x4 x5 x6 (ix1 (row b n)) = Cert.Vlad.peak (Sc x0 x1 x3 x4 x5 x6 b) n := by
  rw [val_main_v19_apply, val_main_v18_apply, val_main_cst_1_apply, v17_read]
  show max (Ideal.ofBits .f32 0xFF800000#32) _ = _
  rw [ReduceExtremum.ofBits_negInf_f32, max_eq_right bot_le]
  exact iSup_congr fun k => v16_read x0 x1 x3 x4 x5 x6 b n k

/-! ## The soft assignment -/

/-- exp(s(n, k) - peak(n)). -/
theorem v23_read (b : Fin 32) (n : Fin 4096) (k : Fin 64) :
    val_main_v23 (F := Ideal) x0 x1 x3 x4 x5 x6 (ix2 (row b n) k) = Cert.Vlad.ex (Sc x0 x1 x3 x4 x5 x6 b) n k := by
  rw [val_main_v23_apply, val_main_v22_apply, val_main_v21_apply, val_main_v20_apply, v16_read]
  have e : idx_main_v20 (idx_main_v21 (ix2 (row b n) k)) = ix1 (row b n) :=
    funext fun a => Fin.ext (by match a with | ⟨0, _⟩ => rfl)
  rw [e, v19_read]
  rfl

/-- The row's mass: zero plus the sum of the exponentials. -/
theorem v24_read (b : Fin 32) (n : Fin 4096) :
    val_main_v24 (F := Ideal) x0 x1 x3 x4 x5 x6 (ix1 (row b n)) = Cert.Vlad.mass (Sc x0 x1 x3 x4 x5 x6 b) n := by
  rw [val_main_v24_apply, val_main_cst_2_apply]
  show Ideal.ofBits .f32 0x00000000#32 + _ = _
  rw [Ideal.ofBits_zero_f32, zero_add]
  refine Finset.sum_congr rfl fun k _ => ?_
  have e : idx_main_v24 (ix1 (row b n)) k = ix2 (row b n) k :=
    funext fun a => Fin.ext (by match a with | ⟨0, _⟩ => rfl | ⟨1, _⟩ => rfl)
  rw [e, v23_read]

/-- The exponential over the mass. -/
theorem v27_read (b : Fin 32) (n : Fin 4096) (k : Fin 64) :
    val_main_v27 (F := Ideal) x0 x1 x3 x4 x5 x6 (ix2 (row b n) k) = Cert.Vlad.asg (Sc x0 x1 x3 x4 x5 x6 b) n k := by
  rw [val_main_v27_apply, val_main_v26_apply, val_main_v25_apply, v23_read]
  have e : idx_main_v25 (idx_main_v26 (ix2 (row b n) k)) = ix1 (row b n) :=
    funext fun a => Fin.ext (by match a with | ⟨0, _⟩ => rfl)
  rw [e, v24_read]
  rfl

/-- The assignments laid out again as (b, n, k). -/
theorem v28_read (b : Fin 32) (n : Fin 4096) (k : Fin 64) :
    val_main_v28 (F := Ideal) x0 x1 x3 x4 x5 x6 (ix3 b n k) = Cert.Vlad.asg (Sc x0 x1 x3 x4 x5 x6 b) n k := by
  rw [val_main_v28_apply]
  have e : idx_main_v28 (ix3 b n k) = ix2 (row b n) k := by
    refine funext fun a => Fin.ext ?_
    have hb := b.isLt; have hn := n.isLt; have hk := k.isLt
    match a with
    | ⟨0, _⟩ => show ((b.val * 4096 + n.val) * 64 + k.val) / 64 = b.val * 4096 + n.val; omega
    | ⟨1, _⟩ => show ((b.val * 4096 + n.val) * 64 + k.val) % 64 = k.val; omega
  rw [e, v27_read]

/-! ## The residual sums -/

/-- The assignments summed over a batch's descriptors: zero plus the sum. -/
theorem v29_read (b : Fin 32) (k : Fin 64) :
    val_main_v29 (F := Ideal) x0 x1 x3 x4 x5 x6 (ix2 b k) = Cert.Vlad.asum (Sc x0 x1 x3 x4 x5 x6 b) k := by
  rw [val_main_v29_apply, val_main_cst_3_apply]
  show Ideal.ofBits .f32 0x00000000#32 + _ = _
  rw [Ideal.ofBits_zero_f32, zero_add]
  refine Finset.sum_congr rfl fun n _ => ?_
  have e : idx_main_v29 (ix2 b k) n = ix3 b n k :=
    funext fun a => Fin.ext (by match a with | ⟨0, _⟩ => rfl | ⟨1, _⟩ => rfl | ⟨2, _⟩ => rfl)
  rw [e, v28_read]

/-- asum(k) * c2(d, k); the second cluster table is the same for every batch. -/
theorem v33_read (b : Fin 32) (d : Fin 512) (k : Fin 64) :
    val_main_v33 (F := Ideal) x0 x1 x2 x3 x4 x5 x6 (ix3 b d k) = Cert.Vlad.asum (Sc x0 x1 x3 x4 x5 x6 b) k * x2 (ix3 (0 : Fin 1) d k) := by
  rw [val_main_v33_apply, val_main_v31_apply, val_main_v30_apply, val_main_v32_apply]
  have e1 : idx_main_v30 (idx_main_v31 (ix3 b d k)) = ix2 b k :=
    funext fun a => Fin.ext (by match a with | ⟨0, _⟩ => rfl | ⟨1, _⟩ => rfl)
  have e2 : idx_main_v32 (ix3 b d k) = ix3 (0 : Fin 1) d k :=
    funext fun a => Fin.ext (by match a with | ⟨0, _⟩ => rfl | ⟨1, _⟩ => rfl | ⟨2, _⟩ => rfl)
  rw [e1, e2, v29_read]
  rfl

/-- The contraction over the descriptors, with its factors put in the order asg(n, k) * x(n, d). -/
theorem v34_read (b : Fin 32) (d : Fin 512) (k : Fin 64) :
    val_main_v34 (F := Ideal) x0 x1 x3 x4 x5 x6 (ix3 b d k)
      = ∑ n : Fin 4096, Cert.Vlad.asg (Sc x0 x1 x3 x4 x5 x6 b) n k * x0 (ix3 b n d) := by
  rw [val_main_v34_apply]
  refine Finset.sum_congr rfl fun n _ => ?_
  have e1 : lidx_main_v34 (ix3 b d k) n = ix3 b n d :=
    funext fun a => Fin.ext (by match a with | ⟨0, _⟩ => rfl | ⟨1, _⟩ => rfl | ⟨2, _⟩ => rfl)
  have e2 : ridx_main_v34 (ix3 b d k) n = ix3 b n k :=
    funext fun a => Fin.ext (by match a with | ⟨0, _⟩ => rfl | ⟨1, _⟩ => rfl | ⟨2, _⟩ => rfl)
  rw [e1, e2, v28_read, mul_comm]

/-- Batch b's residual sums resid(d, k). -/
abbrev R (b : Fin 32) : Fin 512 → Fin 64 → EReal :=
  Cert.Vlad.resid (Sc x0 x1 x3 x4 x5 x6 b) (X x0 b) (C2 x2)

theorem v35_read (b : Fin 32) (d : Fin 512) (k : Fin 64) :
    val_main_v35 (F := Ideal) x0 x1 x2 x3 x4 x5 x6 (ix3 b d k) = R x0 x1 x2 x3 x4 x5 x6 b d k := by
  rw [val_main_v35_apply, v34_read, v33_read]
  rfl

/-! ## Each column over its norm -/

/-- The sum of squares down a column: zero plus the sum. -/
theorem call0_v1_read (b : Fin 32) (k : Fin 64) :
    val_main_call0_v1 (F := Ideal) x0 x1 x2 x3 x4 x5 x6 (ix2 b k)
      = ∑ d : Fin 512, R x0 x1 x2 x3 x4 x5 x6 b d k * R x0 x1 x2 x3 x4 x5 x6 b d k := by
  rw [val_main_call0_v1_apply, val_main_call0_cst_apply]
  show Ideal.ofBits .f32 0x00000000#32 + _ = _
  rw [Ideal.ofBits_zero_f32, zero_add]
  refine Finset.sum_congr rfl fun d _ => ?_
  have e : idx_main_call0_v1 (ix2 b k) d = ix3 b d k :=
    funext fun a => Fin.ext (by match a with | ⟨0, _⟩ => rfl | ⟨1, _⟩ => rfl | ⟨2, _⟩ => rfl)
  rw [e, val_main_call0_v0_apply, v35_read]
  rfl

/-- The larger of a column's Euclidean norm and the floor. -/
theorem v38_read (b : Fin 32) (k : Fin 64) :
    val_main_v38 (F := Ideal) x0 x1 x2 x3 x4 x5 x6 (ix3 b (0 : Fin 1) k) = Cert.Vlad.colNorm (R x0 x1 x2 x3 x4 x5 x6 b) k := by
  rw [val_main_v38_apply, val_main_v36_apply, val_main_call0_v2_apply, val_main_v37_apply, val_main_cst_4_apply]
  have e : idx_main_call0_v2 (ix3 b (0 : Fin 1) k) = ix2 b k :=
    funext fun a => Fin.ext (by match a with | ⟨0, _⟩ => rfl | ⟨1, _⟩ => rfl)
  rw [e, call0_v1_read]
  rfl

/-- An entry over its column's norm. -/
theorem v40_read (b : Fin 32) (d : Fin 512) (k : Fin 64) :
    val_main_v40 (F := Ideal) x0 x1 x2 x3 x4 x5 x6 (ix3 b d k) = Cert.Vlad.colUnit (R x0 x1 x2 x3 x4 x5 x6 b) d k := by
  rw [val_main_v40_apply, val_main_v39_apply, v35_read]
  have e : idx_main_v39 (ix3 b d k) = ix3 b (0 : Fin 1) k :=
    funext fun a => Fin.ext (by match a with | ⟨0, _⟩ => rfl | ⟨1, _⟩ => rfl | ⟨2, _⟩ => rfl)
  rw [e, v38_read]
  rfl

/-! ## The whole table over its norm -/

/-- Batch b's table with every column divided by its norm. -/
abbrev U (b : Fin 32) : Fin 512 → Fin 64 → EReal := Cert.Vlad.colUnit (R x0 x1 x2 x3 x4 x5 x6 b)

/-- Entry d * 64 + k of a flattened row is the table's entry (d, k). -/
theorem flat_at (T : Fin 32 → Fin 512 → Fin 64 → EReal) (b : Fin 32) (d : Fin 512) (k : Fin 64) :
    Cert.Vlad.flat T b ⟨d.val * 64 + k.val, by have := d.isLt; have := k.isLt; omega⟩ = T b d k := by
  have hk := k.isLt
  show T b ⟨(d.val * 64 + k.val) / 64, _⟩ ⟨(d.val * 64 + k.val) % 64, _⟩ = T b d k
  exact congrArg₂ (T b) (Fin.ext (by show (d.val * 64 + k.val) / 64 = d.val; omega))
    (Fin.ext (by show (d.val * 64 + k.val) % 64 = k.val; omega))

/-- Entry j of row b of the flattened table is the entry (j / 64, j % 64) of batch b's table. -/
theorem v41_read (b : Fin 32) (j : Fin 32768) :
    val_main_v41 (F := Ideal) x0 x1 x2 x3 x4 x5 x6 (ix2 b j) = Cert.Vlad.flat (fun b' => U x0 x1 x2 x3 x4 x5 x6 b') b j := by
  rw [val_main_v41_apply]
  have e : idx_main_v41 (ix2 b j)
      = ix3 b (⟨j.val / 64, by have := j.isLt; omega⟩ : Fin 512) (⟨j.val % 64, Nat.mod_lt _ (by norm_num)⟩ : Fin 64) := by
    refine funext fun a => Fin.ext ?_
    have hb := b.isLt; have hj := j.isLt
    match a with
    | ⟨0, _⟩ => show (b.val * 32768 + j.val) / 32768 = b.val; omega
    | ⟨1, _⟩ => show (b.val * 32768 + j.val) / 64 % 512 = j.val / 64; omega
    | ⟨2, _⟩ => show (b.val * 32768 + j.val) % 64 = j.val % 64; omega
  rw [e, v40_read]
  rfl

/-- The sum of squares along a flattened row is the double sum over clusters and dimensions. -/
theorem call1_v1_read (b : Fin 32) :
    val_main_call1_v1 (F := Ideal) x0 x1 x2 x3 x4 x5 x6 (ix1 b)
      = ∑ k : Fin 64, ∑ d : Fin 512, U x0 x1 x2 x3 x4 x5 x6 b d k * U x0 x1 x2 x3 x4 x5 x6 b d k := by
  rw [val_main_call1_v1_apply, val_main_call1_cst_apply]
  show Ideal.ofBits .f32 0x00000000#32 + _ = _
  rw [Ideal.ofBits_zero_f32, zero_add]
  have e : ∀ j : Fin 32768, val_main_call1_v0 (F := Ideal) x0 x1 x2 x3 x4 x5 x6 (idx_main_call1_v1 (ix1 b) j)
      = Cert.Vlad.flat (fun b' => U x0 x1 x2 x3 x4 x5 x6 b') b j * Cert.Vlad.flat (fun b' => U x0 x1 x2 x3 x4 x5 x6 b') b j := by
    intro j
    have e' : idx_main_call1_v1 (ix1 b) j = ix2 b j :=
      funext fun a => Fin.ext (by match a with | ⟨0, _⟩ => rfl | ⟨1, _⟩ => rfl)
    rw [e', val_main_call1_v0_apply, v41_read]
    rfl
  refine (Finset.sum_congr rfl fun j _ => e j).trans ?_
  rw [Cert.Vlad.sum_flat]
  refine Finset.sum_congr rfl fun k _ => Finset.sum_congr rfl fun d _ => ?_
  show Cert.Vlad.flat _ b ⟨d.val * 64 + k.val, _⟩ * Cert.Vlad.flat _ b ⟨d.val * 64 + k.val, _⟩ = _
  rw [flat_at]

/-- The larger of the whole table's Euclidean norm and the floor. -/
theorem v44_read (b : Fin 32) :
    val_main_v44 (F := Ideal) x0 x1 x2 x3 x4 x5 x6 (ix2 b (0 : Fin 1)) = Cert.Vlad.allNorm (U x0 x1 x2 x3 x4 x5 x6 b) := by
  rw [val_main_v44_apply, val_main_v42_apply, val_main_call1_v2_apply, val_main_v43_apply, val_main_cst_5_apply]
  have e : idx_main_call1_v2 (ix2 b (0 : Fin 1)) = ix1 b :=
    funext fun a => Fin.ext (by match a with | ⟨0, _⟩ => rfl)
  rw [e, call1_v1_read]
  rfl

/-- The reference's result at (b, j) is the specification's table of batch b at (j / 64, j % 64). -/
theorem ref_read (x0 : FVec Ideal S32x4096x512 .f32) (x1 : FVec Ideal S512x64 .f32) (x2 : FVec Ideal S1x512x64 .f32) (x3 x4 x5 x6 : FVec Ideal S64 .f32) (b : Fin 32) (j : Fin 32768) :
    Cert.ReferenceIdeal.Read.val_main_v46 (F := Ideal) x0 x1 x2 x3 x4 x5 x6 (ix2 b j)
      = Cert.Vlad.flat (fun b' => Cert.Vlad.vlad (Cert.Vlad.scores (fun n d => x0 (ix3 b' n d)) (fun d k => x1 (ix2 d k)) (fun k => x3 (ix1 k)) (fun k => x4 (ix1 k)) (fun k => x5 (ix1 k)) (fun k => x6 (ix1 k))) (fun n d => x0 (ix3 b' n d)) (fun d k => x2 (ix3 (0 : Fin 1) d k))) b j := by
  rw [val_main_v46_apply, val_main_v45_apply, v41_read]
  have e : idx_main_v45 (ix2 b j) = ix2 b (0 : Fin 1) :=
    funext fun a => Fin.ext (by match a with | ⟨0, _⟩ => rfl | ⟨1, _⟩ => rfl)
  rw [e, v44_read]
  rfl

end Cert.RefRead
-- ==== Proof.FiniteInputs.lean ====
/-
  The precondition `finite_inputs`, decoded into facts about real numbers.

  The printed predicate is a conjunction of eight tests, each a `jnp.all` (a reduction by `and` over every axis,
  from the constant 1) of an elementwise comparison: for each of the seven float arrays, |x| < +∞ at every entry;
  and, for the last array (the running variance), x ≥ 0 at every entry. At the ideal instance a float is an extended
  real, |x| is max x (-x), the pattern 0x7F800000 denotes ⊤ and the zero pattern denotes 0. So:
  • |x| < ⊤ says x is neither ⊥ nor ⊤ — x is (the coercion of) a real number;
  • x ≥ 0 says 0 ≤ x in the order of the extended reals.
  The conjunction being 1 at the scalar result's one index gives each test there; a reduction by `and` that is 1 met
  only 1s, so each comparison holds at every index of its array.
-/
import proofs.«147578_j11888469475892_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.Pre_finite_inputs

/-- The scalar shape has one index. -/
instance : Subsingleton S_.Idx := ⟨fun a b => funext fun d => d.elim0⟩

/-- The f32 pattern 0x7F800000 (exponent all ones, fraction zero, sign clear) denotes +∞. -/
theorem inf_word : Ideal.ofBits .f32 0x7F800000#32 = (⊤ : EReal) := by
  simp [Ideal.ofBits, Ideal.ieee]

/-- An extended real x with max x (-x) < +∞ is a real number: at ⊥ and at ⊤ the maximum is ⊤. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- A one-bit word made from a Boolean is 1 exactly when the Boolean is true. -/
theorem ofBool_eq_one (b : Bool) : BitVec.ofBool b = 1#1 ↔ b = true := by cases b <;> decide

/-- The f32 zero pattern denotes 0. -/
theorem zero_word : Ideal.ofBits .f32 0x00000000#32 = (0 : EReal) := by
  simp [Ideal.ofBits, Ideal.ieee]

/-- x ≥ 0 against the zero pattern is 0 ≤ x. -/
theorem nonneg_of_ge_zero (x : EReal)
    (h : Ideal.cmp .oge x (Ideal.ofBits .f32 0x00000000#32) = 1#1) : (0 : EReal) ≤ x := by
  rw [zero_word] at h
  have hb : decide ((0 : EReal) ≤ x) = true := (ofBool_eq_one _).1 h
  exact of_decide_eq_true hb

/-- `jnp.all(|a| < +∞)` being 1: every entry of `a` is a real number. -/
theorem finite_of_all {s : Shape} {axes : List (Fin s.rank)} (a : FVec Ideal s .f32)
    (hb : S_.BroadcastsInDim s (![] : Fin 0 → Fin s.rank)) (hr : s.ReducesTo axes S_) (init : IVec S_ 1)
    (hu : 0 < S_.numel)
    (e : Host.reduce IntOp.andi
      (cmpf .olt (Host.absf a) (broadcastInDim s ![] hb (constant (F := Ideal) S_ .f32 0x7F800000#32))) init hr hu ix0 = 1#1)
    (i : s.Idx) : ∃ r : ℝ, a i = (r : EReal) :=
  real_of_abs_lt_inf (a i) (Host.reduce_andi_all _ init hr hu ix0 e i)

/-- `jnp.all(a ≥ 0)` being 1: every entry of `a` is nonnegative. -/
theorem nonneg_of_all {s : Shape} {axes : List (Fin s.rank)} (a : FVec Ideal s .f32)
    (hb : S_.BroadcastsInDim s (![] : Fin 0 → Fin s.rank)) (hr : s.ReducesTo axes S_) (init : IVec S_ 1)
    (hu : 0 < S_.numel)
    (e : Host.reduce IntOp.andi
      (cmpf .oge a (broadcastInDim s ![] hb (constant (F := Ideal) S_ .f32 0x00000000#32))) init hr hu ix0 = 1#1)
    (i : s.Idx) : (0 : EReal) ≤ a i :=
  nonneg_of_ge_zero (a i) (Host.reduce_andi_all _ init hr hu ix0 e i)

/-- THE PRECONDITION DECODED: every entry of each of the seven arrays is a real number, and every entry of the
    last array (the running variance) is nonnegative. -/
theorem decode (a0 : FVec Ideal S32x4096x512 .f32) (a1 : FVec Ideal S512x64 .f32) (a2 : FVec Ideal S1x512x64 .f32)
    (a3 a4 a5 a6 : FVec Ideal S64 .f32)
    (h : @fn Cert.Pre_finite_inputs.Gen.facts Ideal _ a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, (0 : EReal) ≤ a6 i) := by
  have e := congrFun h ix0
  dsimp only [fn, fn_part1, fn_part2] at e
  simp only [andi, IntOp.andi_eq_one] at e
  obtain ⟨⟨⟨⟨⟨⟨⟨p0, p1⟩, p2⟩, p3⟩, p4⟩, p5⟩, p6⟩, p7⟩ := e
  exact ⟨finite_of_all a0 _ _ _ _ p0, finite_of_all a1 _ _ _ _ p1, finite_of_all a2 _ _ _ _ p2,
    finite_of_all a3 _ _ _ _ p3, finite_of_all a4 _ _ _ _ p4, finite_of_all a5 _ _ _ _ p5,
    finite_of_all a6 _ _ _ _ p6, nonneg_of_all a6 _ _ _ _ p7⟩

end Cert.FiniteInputs

end
-- ==== Proof.lean ====
/-
  The claim: the kernel program and its idealized reading run without fault and leave their arguments unchanged, the
  reference program does too, and at the extended reals the idealized kernel and the reference end with equal results.

  Both programs compute, per batch of 4096 descriptors in dimension 512 and 64 clusters: scores through an affine map
  per cluster, a softmax over the clusters, the sums of assignment-weighted descriptors minus the assignment mass
  times a second cluster table, each cluster's column divided by max(its norm, floor), and the whole table divided by
  max(its norm, floor), laid out as 512 * 64 entries per batch.

  The kernel works cluster-major, one batch per grid point, with the affine map's constants multiplied out on the host
  (scale = w * s, shift = b - (mu * w) * s, s = 1 / sqrt(var + eps)); the reference works descriptor-major on all batches
  at once, with the map applied step by step, and takes the last norm over the flattened table. On the extended reals
  every step of the two is the same function of the same values except two:
    - the affine map, where the two spellings agree by distributivity once every factor is a real number: the inputs are
      finite by the precondition, and s is real because the precondition keeps var >= 0, hence var + eps > 0;
    - the last sum of squares, a sum over 512 * 64 flattened entries against a double sum: addition on the extended reals
      is commutative and associative, so the arrangement does not matter.
  The rewrite ledger between the kernel and its idealized reading is empty, so that conjunct is trivial.
-/
import proofs.«147578_j11888469475892_2_alg».proof.Defs
import proofs.«147578_j11888469475892_2_alg».proof.Proof.Gen.Kernel
import proofs.«147578_j11888469475892_2_alg».proof.Proof.Gen.Kernel.Skeleton
import proofs.«147578_j11888469475892_2_alg».proof.Proof.Gen.Kernel.Launch
import proofs.«147578_j11888469475892_2_alg».proof.Proof.Gen.Kernel.Points
import proofs.«147578_j11888469475892_2_alg».proof.Proof.Gen.Kernel.Frame
import proofs.«147578_j11888469475892_2_alg».proof.Proof.Gen.KernelIdeal
import proofs.«147578_j11888469475892_2_alg».proof.Proof.Gen.KernelIdeal.Skeleton
import proofs.«147578_j11888469475892_2_alg».proof.Proof.Gen.KernelIdeal.Launch
import proofs.«147578_j11888469475892_2_alg».proof.Proof.Gen.KernelIdeal.Points
import proofs.«147578_j11888469475892_2_alg».proof.Proof.Gen.KernelIdeal.Frame
import proofs.«147578_j11888469475892_2_alg».proof.Proof.Gen.ReferenceIdeal
import proofs.«147578_j11888469475892_2_alg».proof.Proof.Gen.ReferenceIdeal.Run
import proofs.«147578_j11888469475892_2_alg».proof.Proof.Gen.ReferenceIdeal.Read
import proofs.«147578_j11888469475892_2_alg».proof.Proof.Gen.Pre_finite_inputs
import proofs.«147578_j11888469475892_2_alg».proof.Proof.KernelRun
import proofs.«147578_j11888469475892_2_alg».proof.Proof.RefRead
import proofs.«147578_j11888469475892_2_alg».proof.Proof.FiniteInputs
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two runs end at one function of the arguments: the kernel's at the specification's table with the scores in
    the folded spelling, the reference's at the same table with the scores in the plain spelling; under the
    precondition every factor of the affine map is a real number, and the two spellings agree. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h6pos⟩ := Cert.FiniteInputs.decode _ _ _ _ _ _ _ (hpre c)
  rw [Cert.ReferenceIdeal.Read.val_main_v46_eq, (hagree c).1, (hagree c).2.1, (hagree c).2.2.1, (hagree c).2.2.2.1,
    (hagree c).2.2.2.2.1, (hagree c).2.2.2.2.2.1, (hagree c).2.2.2.2.2.2]
  funext i
  obtain ⟨b, j, rfl⟩ : ∃ (b : Fin 32) (j : Fin 32768), i = ix2 b j := ⟨i 0, i 1, eq_ix2 i⟩
  rw [Cert.RefRead.ref_read]
  show _ = Cert.Vlad.flat (Cert.KernelIdeal.Hand.tableOf m c) b j
  refine congrArg (fun T => Cert.Vlad.flat T b j) (funext fun b' => funext fun d => funext fun k => ?_)
  unfold Cert.KernelIdeal.Hand.tableOf
  rw [Cert.Vlad.scoresFolded_eq_scores _ _ _ _ _ _ (fun n d => h0 (ix3 b' n d)) (fun d k => h1 (ix2 d k))
    (fun k => h3 (ix1 k)) (fun k => h4 (ix1 k)) (fun k => h5 (ix1 k))
    (fun k => by
      obtain ⟨r, hr⟩ := h6 (ix1 k)
      exact ⟨r, EReal.coe_nonneg.mp (hr ▸ h6pos (ix1 k)), hr⟩)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
